-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S2x16000000 : Shape := ⟨2, ![2, 16000000]⟩
abbrev S1x4 : Shape := ⟨2, ![1, 4]⟩
abbrev S4 : Shape := ⟨1, ![4]⟩
abbrev S4x4 : Shape := ⟨2, ![4, 4]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S1x4 : S_.BroadcastsInDim S1x4 (![] : Fin 0 → Fin S1x4.rank)
  reducesTo_S1x4_S_d0_1 : S1x4.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_

variable [Facts]

def fn_part1 {F : FTy → Type} [FloatOps F] (main_arg5 : FVec F S4 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S1000000x1 .f32) (main_arg1 : IVec S2x16000000 32) (main_arg2 : FVec F S1x4 .f32) (main_arg3 : FVec F S4 .f32) (main_arg4 : FVec F S4x4 .f32) (main_arg5 : FVec F S4 .f32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1x4 .f32 := Host.absf main_arg2
  let main_cst_0 : FVec F S_ .f32 := constant S_ .f32 0x7F800000#32
  let main_v5 : FVec F S1x4 .f32 := broadcastInDim S1x4 ![] bcast_S_S1x4 main_cst_0
  let main_v6 : IVec S1x4 1 := cmpf .olt main_v4 main_v5
  let main_c_1 : IVec S_ 1 := constantI S_ 1 1#1
  let main_v7 : IVec S_ 1 := (fun x v => Host.reduce IntOp.andi x v reducesTo_S1x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x4 .f32 := Host.absf main_arg4
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg5 main_v13 main_v16
-- ==== Kernel.lean ====
abbrev S1000000x1 : Shape := ⟨2, ![1000000, 1]⟩
abbrev S2x16000000 : Shape := ⟨2, ![2, 16000000]⟩
abbrev S1x4 : Shape := ⟨2, ![1, 4]⟩
abbrev S4 : Shape := ⟨1, ![4]⟩
abbrev S4x4 : Shape := ⟨2, ![4, 4]⟩
abbrev S1x16000000 : Shape := ⟨2, ![1, 16000000]⟩
abbrev S16000000 : Shape := ⟨1, ![16000000]⟩
abbrev S_ : Shape := ⟨0, ![]⟩
abbrev S1000000 : Shape := ⟨1, ![1000000]⟩
abbrev S16000000x1 : Shape := ⟨2, ![16000000, 1]⟩
abbrev S1000000x4 : Shape := ⟨2, ![1000000, 4]⟩
abbrev S16000000x4 : Shape := ⟨2, ![16000000, 4]⟩
abbrev S4x1000000 : Shape := ⟨2, ![4, 1000000]⟩
abbrev S4x16000000 : Shape := ⟨2, ![4, 16000000]⟩
abbrev S4x160000 : Shape := ⟨2, ![4, 160000]⟩
abbrev S1x160000 : Shape := ⟨2, ![1, 160000]⟩
abbrev S160000 : Shape := ⟨1, ![160000]⟩

abbrev nBuf : Space → Nat
  | .hbm => 121
  | .vmem => 4
  | .smem => 0
  | _ => 0

abbrev bufTy : (tb : Table) → Fin (tcTables nBuf tb) → BufTy
  | .hbm, ⟨0, _⟩ => ⟨S1000000x1, .f32⟩
  | .hbm, ⟨1, _⟩ => ⟨S2x16000000, .i32⟩
  | .hbm, ⟨2, _⟩ => ⟨S1x4, .f32⟩
  | .hbm, ⟨3, _⟩ => ⟨S4, .f32⟩
  | .hbm, ⟨4, _⟩ => ⟨S4x4, .f32⟩
  | .hbm, ⟨5, _⟩ => ⟨S4, .f32⟩
  | .hbm, ⟨6, _⟩ => ⟨S1x16000000, .i32⟩
  | .hbm, ⟨7, _⟩ => ⟨S16000000, .i32⟩
  | .hbm, ⟨8, _⟩ => ⟨S1x16000000, .i32⟩
  | .hbm, ⟨9, _⟩ => ⟨S16000000, .i32⟩
  | .hbm, ⟨10, _⟩ => ⟨S_, .f32⟩
  | .hbm, ⟨11, _⟩ => ⟨S16000000, .f32⟩
  | .hbm, ⟨12, _⟩ => ⟨S_, .f32⟩
  | .hbm, ⟨13, _⟩ => ⟨S1000000, .f32⟩
  | .hbm, ⟨14, _⟩ => ⟨S16000000x1, .i32⟩
  | .hbm, ⟨15, _⟩ => ⟨S1000000, .f32⟩
  | .hbm, ⟨16, _⟩ => ⟨S_, .f32⟩
  | .hbm, ⟨17, _⟩ => ⟨S1000000, .f32⟩
  | .hbm, ⟨18, _⟩ => ⟨S1000000, .f32⟩
  | .hbm, ⟨19, _⟩ => ⟨S_, .f32⟩
  | .hbm, ⟨20, _⟩ => ⟨S1000000, .f32⟩
  | .hbm, ⟨21, _⟩ => ⟨S1000000, .i1⟩
  | .hbm, ⟨22, _⟩ => ⟨S1000000, .f32⟩
  | .hbm, ⟨23, _⟩ => ⟨S_, .f32⟩
  | .hbm, ⟨24, _⟩ => ⟨S_, .f32⟩
  | .hbm, ⟨25, _⟩ => ⟨S1000000, .f32⟩
  | .hbm, ⟨26, _⟩ => ⟨S1000000, .f32⟩
  | .hbm, ⟨27, _⟩ => ⟨S_, .i32⟩
  | .hbm, ⟨28, _⟩ => ⟨S16000000, .i32⟩
  | .hbm, ⟨29, _⟩ => ⟨S16000000, .i1⟩
  | .hbm, ⟨30, _⟩ => ⟨S_, .i32⟩
  | .hbm, ⟨31, _⟩ => ⟨S16000000, .i32⟩
  | .hbm, ⟨32, _⟩ => ⟨S16000000, .i32⟩
  | .hbm, ⟨33, _⟩ => ⟨S16000000, .i32⟩
  | .hbm, ⟨34, _⟩ => ⟨S16000000x1, .i32⟩
  | .hbm, ⟨35, _⟩ => ⟨S16000000, .f32⟩
  | .hbm, ⟨36, _⟩ => ⟨S_, .i32⟩
  | .hbm, ⟨37, _⟩ => ⟨S16000000, .i32⟩
  | .hbm, ⟨38, _⟩ => ⟨S16000000, .i1⟩
  | .hbm, ⟨39, _⟩ => ⟨S_, .i32⟩
  | .hbm, ⟨40, _⟩ => ⟨S16000000, .i32⟩
  | .hbm, ⟨41, _⟩ => ⟨S16000000, .i32⟩
  | .hbm, ⟨42, _⟩ => ⟨S16000000, .i32⟩
  | .hbm, ⟨43, _⟩ => ⟨S16000000x1, .i32⟩
  | .hbm, ⟨44, _⟩ => ⟨S16000000, .f32⟩
  | .hbm, ⟨45, _⟩ => ⟨S16000000, .f32⟩
  | .hbm, ⟨46, _⟩ => ⟨S1000000x4, .f32⟩
  | .hbm, ⟨47, _⟩ => ⟨S_, .i32⟩
  | .hbm, ⟨48, _⟩ => ⟨S16000000, .i32⟩
  | .hbm, ⟨49, _⟩ => ⟨S16000000, .i1⟩
  | .hbm, ⟨50, _⟩ => ⟨S_, .i32⟩
  | .hbm, ⟨51, _⟩ => ⟨S16000000, .i32⟩
  | .hbm, ⟨52, _⟩ => ⟨S16000000, .i32⟩
  | .hbm, ⟨53, _⟩ => ⟨S16000000, .i32⟩
  | .hbm, ⟨54, _⟩ => ⟨S16000000x1, .i32⟩
  | .hbm, ⟨55, _⟩ => ⟨S16000000x4, .f32⟩
  | .hbm, ⟨56, _⟩ => ⟨S16000000x1, .f32⟩
  | .hbm, ⟨57, _⟩ => ⟨S16000000x4, .f32⟩
  | .hbm, ⟨58, _⟩ => ⟨S16000000x4, .f32⟩
  | .hbm, ⟨59, _⟩ => ⟨S_, .f32⟩
  | .hbm, ⟨60, _⟩ => ⟨S1000000x4, .f32⟩
  | .hbm, ⟨61, _⟩ => ⟨S16000000x1, .i32⟩
  | .hbm, ⟨62, _⟩ => ⟨S1000000x4, .f32⟩
  | .hbm, ⟨63, _⟩ => ⟨S1000000, .f32⟩
  | .hbm, ⟨64, _⟩ => ⟨S1000000x1, .f32⟩
  | .hbm, ⟨65, _⟩ => ⟨S1000000x4, .f32⟩
  | .hbm, ⟨66, _⟩ => ⟨S1000000x4, .f32⟩
  | .hbm, ⟨67, _⟩ => ⟨S1000000x4, .f32⟩
  | .hbm, ⟨68, _⟩ => ⟨S1x4, .f32⟩
  | .hbm, ⟨69, _⟩ => ⟨S1000000x4, .f32⟩
  | .hbm, ⟨70, _⟩ => ⟨S1000000x4, .f32⟩
  | .hbm, ⟨71, _⟩ => ⟨S_, .f32⟩
  | .hbm, ⟨72, _⟩ => ⟨S1000000x4, .f32⟩
  | .hbm, ⟨73, _⟩ => ⟨S1000000x4, .f32⟩
  | .hbm, ⟨74, _⟩ => ⟨S1000000x4, .f32⟩
  | .hbm, ⟨75, _⟩ => ⟨S_, .i32⟩
  | .hbm, ⟨76, _⟩ => ⟨S16000000, .i32⟩
  | .hbm, ⟨77, _⟩ => ⟨S16000000, .i1⟩
  | .hbm, ⟨78, _⟩ => ⟨S_, .i32⟩
  | .hbm, ⟨79, _⟩ => ⟨S16000000, .i32⟩
  | .hbm, ⟨80, _⟩ => ⟨S16000000, .i32⟩
  | .hbm, ⟨81, _⟩ => ⟨S16000000, .i32⟩
  | .hbm, ⟨82, _⟩ => ⟨S16000000x1, .i32⟩
  | .hbm, ⟨83, _⟩ => ⟨S16000000x4, .f32⟩
  | .hbm, ⟨84, _⟩ => ⟨S16000000x1, .f32⟩
  | .hbm, ⟨85, _⟩ => ⟨S16000000x4, .f32⟩
  | .hbm, ⟨86, _⟩ => ⟨S16000000x4, .f32⟩
  | .hbm, ⟨87, _⟩ => ⟨S_, .f32⟩
  | .hbm, ⟨88, _⟩ => ⟨S1000000x4, .f32⟩
  | .hbm, ⟨89, _⟩ => ⟨S16000000x1, .i32⟩
  | .hbm, ⟨90, _⟩ => ⟨S1000000x4, .f32⟩
  | .hbm, ⟨91, _⟩ => ⟨S1000000, .f32⟩
  | .hbm, ⟨92, _⟩ => ⟨S1000000x1, .f32⟩
  | .hbm, ⟨93, _⟩ => ⟨S1000000x4, .f32⟩
  | .hbm, ⟨94, _⟩ => ⟨S1000000x4, .f32⟩
  | .hbm, ⟨95, _⟩ => ⟨S1000000x4, .f32⟩
  | .hbm, ⟨96, _⟩ => ⟨S1x4, .f32⟩
  | .hbm, ⟨97, _⟩ => ⟨S1000000x4, .f32⟩
  | .hbm, ⟨98, _⟩ => ⟨S1000000x4, .f32⟩
  | .hbm, ⟨99, _⟩ => ⟨S4x1000000, .f32⟩
  | .hbm, ⟨100, _⟩ => ⟨S_, .i32⟩
  | .hbm, ⟨101, _⟩ => ⟨S16000000, .i32⟩
  | .hbm, ⟨102, _⟩ => ⟨S16000000, .i1⟩
  | .hbm, ⟨103, _⟩ => ⟨S_, .i32⟩
  | .hbm, ⟨104, _⟩ => ⟨S16000000, .i32⟩
  | .hbm, ⟨105, _⟩ => ⟨S16000000, .i32⟩
  | .hbm, ⟨106, _⟩ => ⟨S16000000, .i32⟩
  | .hbm, ⟨107, _⟩ => ⟨S16000000x1, .i32⟩
  | .hbm, ⟨108, _⟩ => ⟨S4x16000000, .f32⟩
  | .hbm, ⟨109, _⟩ => ⟨S_, .i32⟩
  | .hbm, ⟨110, _⟩ => ⟨S16000000, .i32⟩
  | .hbm, ⟨111, _⟩ => ⟨S16000000, .i1⟩
  | .hbm, ⟨112, _⟩ => ⟨S_, .i32⟩
  | .hbm, ⟨113, _⟩ => ⟨S16000000, .i32⟩
  | .hbm, ⟨114, _⟩ => ⟨S16000000, .i32⟩
  | .hbm, ⟨115, _⟩ => ⟨S16000000, .i32⟩
  | .hbm, ⟨116, _⟩ => ⟨S16000000x1, .i32⟩
  | .hbm, ⟨117, _⟩ => ⟨S4x16000000, .f32⟩
  | .hbm, ⟨118, _⟩ => ⟨S4x16000000, .f32⟩
  | .hbm, ⟨119, _⟩ => ⟨S1x16000000, .f32⟩
  | .hbm, ⟨120, _⟩ => ⟨S16000000, .f32⟩
  | .local _ .vmem, ⟨0, _⟩ => ⟨S4x160000, .f32⟩
  | .local _ .vmem, ⟨1, _⟩ => ⟨S4x160000, .f32⟩
  | .local _ .vmem, ⟨2, _⟩ => ⟨S1x160000, .f32⟩
  | .local _ .vmem, ⟨3, _⟩ => ⟨S1x160000, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_cst : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_cst_2 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_cst_3 : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_v13 : Ref sig .tc := ⟨.hbm, 26, rfl⟩
abbrev main_call0_c : Ref sig .tc := ⟨.hbm, 27, rfl⟩
abbrev main_call0_v14 : Ref sig .tc := ⟨.hbm, 28, rfl⟩
abbrev main_call0_v15 : Ref sig .tc := ⟨.hbm, 29, rfl⟩
abbrev main_call0_c_4 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_c_5 : Ref sig .tc := ⟨.hbm, 36, rfl⟩
abbrev main_call0_v21 : Ref sig .tc := ⟨.hbm, 37, rfl⟩
abbrev main_call0_v22 : Ref sig .tc := ⟨.hbm, 38, rfl⟩
abbrev main_call0_c_6 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_c_7 : Ref sig .tc := ⟨.hbm, 47, rfl⟩
abbrev main_call0_v30 : Ref sig .tc := ⟨.hbm, 48, rfl⟩
abbrev main_call0_v31 : Ref sig .tc := ⟨.hbm, 49, rfl⟩
abbrev main_call0_c_8 : Ref sig .tc := ⟨.hbm, 50, rfl⟩
abbrev main_call0_v32 : Ref sig .tc := ⟨.hbm, 51, rfl⟩
abbrev main_call0_v33 : Ref sig .tc := ⟨.hbm, 52, rfl⟩
abbrev main_call0_v34 : Ref sig .tc := ⟨.hbm, 53, rfl⟩
abbrev main_call0_v35 : Ref sig .tc := ⟨.hbm, 54, rfl⟩
abbrev main_call0_v36 : Ref sig .tc := ⟨.hbm, 55, rfl⟩
abbrev main_call0_v37 : Ref sig .tc := ⟨.hbm, 56, rfl⟩
abbrev main_call0_v38 : Ref sig .tc := ⟨.hbm, 57, rfl⟩
abbrev main_call0_v39 : Ref sig .tc := ⟨.hbm, 58, rfl⟩
abbrev main_call0_cst_9 : Ref sig .tc := ⟨.hbm, 59, rfl⟩
abbrev main_call0_v40 : Ref sig .tc := ⟨.hbm, 60, rfl⟩
abbrev main_call0_v41 : Ref sig .tc := ⟨.hbm, 61, rfl⟩
abbrev main_call0_v42 : Ref sig .tc := ⟨.hbm, 62, rfl⟩
abbrev main_call0_v43 : Ref sig .tc := ⟨.hbm, 63, rfl⟩
abbrev main_call0_v44 : Ref sig .tc := ⟨.hbm, 64, rfl⟩
abbrev main_call0_v45 : Ref sig .tc := ⟨.hbm, 65, rfl⟩
abbrev main_call0_v46 : Ref sig .tc := ⟨.hbm, 66, rfl⟩
abbrev main_call0_v47 : Ref sig .tc := ⟨.hbm, 67, rfl⟩
abbrev main_call0_v48 : Ref sig .tc := ⟨.hbm, 68, rfl⟩
abbrev main_call0_v49 : Ref sig .tc := ⟨.hbm, 69, rfl⟩
abbrev main_call0_v50 : Ref sig .tc := ⟨.hbm, 70, rfl⟩
abbrev main_call0_call1_cst : Ref sig .tc := ⟨.hbm, 71, rfl⟩
abbrev main_call0_call1_v0 : Ref sig .tc := ⟨.hbm, 72, rfl⟩
abbrev main_call0_v51 : Ref sig .tc := ⟨.hbm, 73, rfl⟩
abbrev main_call0_v52 : Ref sig .tc := ⟨.hbm, 74, rfl⟩
abbrev main_call0_c_10 : Ref sig .tc := ⟨.hbm, 75, rfl⟩
abbrev main_call0_v53 : Ref sig .tc := ⟨.hbm, 76, rfl⟩
abbrev main_call0_v54 : Ref sig .tc := ⟨.hbm, 77, rfl⟩
abbrev main_call0_c_11 : Ref sig .tc := ⟨.hbm, 78, rfl⟩
abbrev main_call0_v55 : Ref sig .tc := ⟨.hbm, 79, rfl⟩
abbrev main_call0_v56 : Ref sig .tc := ⟨.hbm, 80, rfl⟩
abbrev main_call0_v57 : Ref sig .tc := ⟨.hbm, 81, rfl⟩
abbrev main_call0_v58 : Ref sig .tc := ⟨.hbm, 82, rfl⟩
abbrev main_call0_v59 : Ref sig .tc := ⟨.hbm, 83, rfl⟩
abbrev main_call0_v60 : Ref sig .tc := ⟨.hbm, 84, rfl⟩
abbrev main_call0_v61 : Ref sig .tc := ⟨.hbm, 85, rfl⟩
abbrev main_call0_v62 : Ref sig .tc := ⟨.hbm, 86, rfl⟩
abbrev main_call0_cst_12 : Ref sig .tc := ⟨.hbm, 87, rfl⟩
abbrev main_call0_v63 : Ref sig .tc := ⟨.hbm, 88, rfl⟩
abbrev main_call0_v64 : Ref sig .tc := ⟨.hbm, 89, rfl⟩
abbrev main_call0_v65 : Ref sig .tc := ⟨.hbm, 90, rfl⟩
abbrev main_call0_v66 : Ref sig .tc := ⟨.hbm, 91, rfl⟩
abbrev main_call0_v67 : Ref sig .tc := ⟨.hbm, 92, rfl⟩
abbrev main_call0_v68 : Ref sig .tc := ⟨.hbm, 93, rfl⟩
abbrev main_call0_v69 : Ref sig .tc := ⟨.hbm, 94, rfl⟩
abbrev main_call0_v70 : Ref sig .tc := ⟨.hbm, 95, rfl⟩
abbrev main_call0_v71 : Ref sig .tc := ⟨.hbm, 96, rfl⟩
abbrev main_call0_v72 : Ref sig .tc := ⟨.hbm, 97, rfl⟩
abbrev main_call0_v73 : Ref sig .tc := ⟨.hbm, 98, rfl⟩
abbrev main_call0_v74 : Ref sig .tc := ⟨.hbm, 99, rfl⟩
abbrev main_call0_c_13 : Ref sig .tc := ⟨.hbm, 100, rfl⟩
abbrev main_call0_v75 : Ref sig .tc := ⟨.hbm, 101, rfl⟩
abbrev main_call0_v76 : Ref sig .tc := ⟨.hbm, 102, rfl⟩
abbrev main_call0_c_14 : Ref sig .tc := ⟨.hbm, 103, rfl⟩
abbrev main_call0_v77 : Ref sig .tc := ⟨.hbm, 104, rfl⟩
abbrev main_call0_v78 : Ref sig .tc := ⟨.hbm, 105, rfl⟩
abbrev main_call0_v79 : Ref sig .tc := ⟨.hbm, 106, rfl⟩
abbrev main_call0_v80 : Ref sig .tc := ⟨.hbm, 107, rfl⟩
abbrev main_call0_v81 : Ref sig .tc := ⟨.hbm, 108, rfl⟩
abbrev main_call0_c_15 : Ref sig .tc := ⟨.hbm, 109, rfl⟩
abbrev main_call0_v82 : Ref sig .tc := ⟨.hbm, 110, rfl⟩
abbrev main_call0_v83 : Ref sig .tc := ⟨.hbm, 111, rfl⟩
abbrev main_call0_c_16 : Ref sig .tc := ⟨.hbm, 112, rfl⟩
abbrev main_call0_v84 : Ref sig .tc := ⟨.hbm, 113, rfl⟩
abbrev main_call0_v85 : Ref sig .tc := ⟨.hbm, 114, rfl⟩
abbrev main_call0_v86 : Ref sig .tc := ⟨.hbm, 115, rfl⟩
abbrev main_call0_v87 : Ref sig .tc := ⟨.hbm, 116, rfl⟩
abbrev main_call0_v88 : Ref sig .tc := ⟨.hbm, 117, rfl⟩
abbrev main_call0_v89 : Ref sig .tc := ⟨.hbm, 118, rfl⟩
abbrev main_call0_v90 : Ref sig .tc := ⟨.hbm, 119, rfl⟩
abbrev main_v0 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x160000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S_S1000000 : S_.BroadcastsInDim S1000000 (![] : Fin 0 → Fin S1000000.rank)
  bcast_S16000000_S16000000x1_0 : S16000000.BroadcastsInDim S16000000x1 (![0] : Fin 1 → Fin S16000000x1.rank)
  bcast_S16000000x1_S16000000x4_0_1 : S16000000x1.BroadcastsInDim S16000000x4 (![0, 1] : Fin 2 → Fin S16000000x4.rank)
  bcast_S_S1000000x4 : S_.BroadcastsInDim S1000000x4 (![] : Fin 0 → Fin S1000000x4.rank)
  bcast_S1000000_S1000000x1_0 : S1000000.BroadcastsInDim S1000000x1 (![0] : Fin 1 → Fin S1000000x1.rank)
  bcast_S1000000x1_S1000000x4_0_1 : S1000000x1.BroadcastsInDim S1000000x4 (![0, 1] : Fin 2 → Fin S1000000x4.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  transposes_S1000000x4_S4x1000000_1_0 : S1000000x4.Transposes [1, 0] S4x1000000
  inb_S4x160000_S4x160000_0_0 : ∀ a, (![0, 0] : Fin 2 → Nat) a + S4x160000.size a ≤ S4x160000.size a
  h_S4x160000 : 0 < S4x160000.numel
  shapeCasts_S4x160000_S4x160000 : S4x160000.ShapeCasts S4x160000
  reduces_S4x160000_S160000 : S4x160000.Reduces [0] S160000
  shapeCasts_S160000_S1x160000 : S160000.ShapeCasts S1x160000
  inb_S1x160000_S1x160000_0_0 : ∀ a, (![0, 0] : Fin 2 → Nat) a + S1x160000.size a ≤ S1x160000.size a
  h_S1x160000 : 0 < S1x160000.numel
  scatter_S1000000_S16000000x1_S16000000_n_0_0_1_wf : ScatterDims.WF S1000000 S16000000x1 S16000000 [] [0] [0] 1
  gather_S1000000_S16000000x1_S16000000_n_0_n_n_0_1_1_wf : GatherDims.WF S1000000 S16000000x1 S16000000 [] [0] [] [0] [] 1 ![1]
  dot_S1000000x1_S1x4_S1000000x4_1_0_0_1_n_n_wf : DotDims.WF S1000000x1 S1x4 S1000000x4 [1] [0] [0] [1] [] []
  gather_S1000000x4_S16000000x1_S16000000x4_1_0_n_n_0_1_14_wf : GatherDims.WF S1000000x4 S16000000x1 S16000000x4 [1] [0] [] [0] [] 1 ![1, 4]
  scatter_S1000000x4_S16000000x1_S16000000x4_1_0_0_1_wf : ScatterDims.WF S1000000x4 S16000000x1 S16000000x4 [1] [0] [0] 1
  dot_S1000000x4_S4x4_S1000000x4_1_0_0_1_n_n_wf : DotDims.WF S1000000x4 S4x4 S1000000x4 [1] [0] [0] [1] [] []
  gather_S4x1000000_S16000000x1_S4x16000000_0_1_n_n_1_1_41_wf : GatherDims.WF S4x1000000 S16000000x1 S4x16000000 [0] [1] [] [1] [] 1 ![4, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x160000.size a ≤ S4x16000000.size a
  hwx0_0 : ∀ i : grid0.Coords, EltTy.bits .f32 = 32 ∨ (Rect.block (s := S4x16000000) S4x160000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x160000.size a ≤ S1x16000000.size a
  hwx0_1 : ∀ i : grid0.Coords, EltTy.bits .f32 = 32 ∨ (Rect.block (s := S1x16000000) S1x160000.size (cc0_transform_1 i) (hinb0_1 i)).WholeWords (EltTy.packing .f32)

variable [Facts₀]

def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def gather_S1000000_S16000000x1_S16000000_n_0_n_n_0_1_1 : GatherDims S1000000 S16000000x1 S16000000 where
  offsetDims := []
  collapsedSliceDims := [0]
  operandBatchingDims := []
  startIndicesBatchingDims := []
  startIndexMap := [0]
  indexVectorDim := 1
  sliceSizes := ![1]
  wf := gather_S1000000_S16000000x1_S16000000_n_0_n_n_0_1_1_wf
def dot_S1000000x1_S1x4_S1000000x4_1_0_0_1_n_n : DotDims S1000000x1 S1x4 S1000000x4 where
  lhsContracting := [1]
  rhsContracting := [0]
  lhsNonContracting := [0]
  rhsNonContracting := [1]
  lhsBatch := []
  rhsBatch := []
  wf := dot_S1000000x1_S1x4_S1000000x4_1_0_0_1_n_n_wf
def gather_S1000000x4_S16000000x1_S16000000x4_1_0_n_n_0_1_14 : GatherDims S1000000x4 S16000000x1 S16000000x4 where
  offsetDims := [1]
  collapsedSliceDims := [0]
  operandBatchingDims := []
  startIndicesBatchingDims := []
  startIndexMap := [0]
  indexVectorDim := 1
  sliceSizes := ![1, 4]
  wf := gather_S1000000x4_S16000000x1_S16000000x4_1_0_n_n_0_1_14_wf
def scatter_S1000000x4_S16000000x1_S16000000x4_1_0_0_1 : ScatterDims S1000000x4 S16000000x1 S16000000x4 where
  updateWindowDims := [1]
  insertedWindowDims := [0]
  scatterDimsToOperandDims := [0]
  indexVectorDim := 1
  wf := scatter_S1000000x4_S16000000x1_S16000000x4_1_0_0_1_wf
def dot_S1000000x4_S4x4_S1000000x4_1_0_0_1_n_n : DotDims S1000000x4 S4x4 S1000000x4 where
  lhsContracting := [1]
  rhsContracting := [0]
  lhsNonContracting := [0]
  rhsNonContracting := [1]
  lhsBatch := []
  rhsBatch := []
  wf := dot_S1000000x4_S4x4_S1000000x4_1_0_0_1_n_n_wf
def gather_S4x1000000_S16000000x1_S4x16000000_0_1_n_n_1_1_41 : GatherDims S4x1000000 S16000000x1 S4x16000000 where
  offsetDims := [0]
  collapsedSliceDims := [1]
  operandBatchingDims := []
  startIndicesBatchingDims := []
  startIndexMap := [1]
  indexVectorDim := 1
  sliceSizes := ![4, 1]
  wf := gather_S4x1000000_S16000000x1_S4x16000000_0_1_n_n_1_1_41_wf

abbrev win0_0 : Pipeline.Window sig grid0 :=
  Pipeline.Window.ofSpec (Memref.whole main_call0_v89) S4x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v90) S1x160000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1000000x1 : Shape := ⟨2, ![1000000, 1]⟩
abbrev S2x16000000 : Shape := ⟨2, ![2, 16000000]⟩
abbrev S1x4 : Shape := ⟨2, ![1, 4]⟩
abbrev S4 : Shape := ⟨1, ![4]⟩
abbrev S4x4 : Shape := ⟨2, ![4, 4]⟩
abbrev S1x16000000 : Shape := ⟨2, ![1, 16000000]⟩
abbrev S16000000 : Shape := ⟨1, ![16000000]⟩
abbrev S1000000x4 : Shape := ⟨2, ![1000000, 4]⟩
abbrev S1000000 : Shape := ⟨1, ![1000000]⟩
abbrev S17000000 : Shape := ⟨1, ![17000000]⟩
abbrev S_ : Shape := ⟨0, ![]⟩
abbrev S17000000x1 : Shape := ⟨2, ![17000000, 1]⟩
abbrev S17000000x4 : Shape := ⟨2, ![17000000, 4]⟩
abbrev S16000000x1 : Shape := ⟨2, ![16000000, 1]⟩
abbrev S16000000x4 : Shape := ⟨2, ![16000000, 4]⟩

abbrev nBuf : Space → Nat
  | .hbm => 146
  | .vmem => 0
  | .smem => 0
  | _ => 0

abbrev hbmTy0_0 (i : Nat) : BufTy := match i % 128 with
  | 0 => ⟨S1000000x1, .f32⟩
  | 1 => ⟨S2x16000000, .i32⟩
  | 2 => ⟨S1x4, .f32⟩
  | 3 => ⟨S4, .f32⟩
  | 4 => ⟨S4x4, .f32⟩
  | 5 => ⟨S4, .f32⟩
  | 6 => ⟨S1x16000000, .i32⟩
  | 7 => ⟨S16000000, .i32⟩
  | 8 => ⟨S1x16000000, .i32⟩
  | 9 => ⟨S16000000, .i32⟩
  | 10 => ⟨S1000000x4, .f32⟩
  | 11 => ⟨S1000000, .i32⟩
  | 12 => ⟨S17000000, .i32⟩
  | 13 => ⟨S17000000, .i32⟩
  | 14 => ⟨S_, .f32⟩
  | 15 => ⟨S17000000, .f32⟩
  | 16 => ⟨S_, .f32⟩
  | 17 => ⟨S1000000, .f32⟩
  | 18 => ⟨S17000000x1, .i32⟩
  | 19 => ⟨S1000000, .f32⟩
  | 20 => ⟨S_, .f32⟩
  | 21 => ⟨S1000000, .f32⟩
  | 22 => ⟨S1000000, .i1⟩
  | 23 => ⟨S1000000, .f32⟩
  | 24 => ⟨S_, .f32⟩
  | 25 => ⟨S_, .f32⟩
  | 26 => ⟨S1000000, .f32⟩
  | 27 => ⟨S1000000, .f32⟩
  | 28 => ⟨S_, .i32⟩
  | 29 => ⟨S17000000, .i32⟩
  | 30 => ⟨S17000000, .i1⟩
  | 31 => ⟨S_, .i32⟩
  | 32 => ⟨S17000000, .i32⟩
  | 33 => ⟨S17000000, .i32⟩
  | 34 => ⟨S17000000, .i32⟩
  | 35 => ⟨S17000000x1, .i32⟩
  | 36 => ⟨S17000000, .f32⟩
  | 37 => ⟨S_, .i32⟩
  | 38 => ⟨S17000000, .i32⟩
  | 39 => ⟨S17000000, .i1⟩
  | 40 => ⟨S_, .i32⟩
  | 41 => ⟨S17000000, .i32⟩
  | 42 => ⟨S17000000, .i32⟩
  | 43 => ⟨S17000000, .i32⟩
  | 44 => ⟨S17000000x1, .i32⟩
  | 45 => ⟨S17000000, .f32⟩
  | 46 => ⟨S17000000, .f32⟩
  | 47 => ⟨S_, .i32⟩
  | 48 => ⟨S17000000, .i32⟩
  | 49 => ⟨S17000000, .i1⟩
  | 50 => ⟨S_, .i32⟩
  | 51 => ⟨S17000000, .i32⟩
  | 52 => ⟨S17000000, .i32⟩
  | 53 => ⟨S17000000, .i32⟩
  | 54 => ⟨S17000000x1, .i32⟩
  | 55 => ⟨S17000000x4, .f32⟩
  | 56 => ⟨S17000000x1, .f32⟩
  | 57 => ⟨S17000000x4, .f32⟩
  | 58 => ⟨S17000000x4, .f32⟩
  | 59 => ⟨S_, .f32⟩
  | 60 => ⟨S1000000x4, .f32⟩
  | 61 => ⟨S17000000x1, .i32⟩
  | 62 => ⟨S1000000x4, .f32⟩
  | 63 => ⟨S1x4, .f32⟩
  | 64 => ⟨S1000000x4, .f32⟩
  | 65 => ⟨S1000000x4, .f32⟩
  | 66 => ⟨S_, .f32⟩
  | 67 => ⟨S1000000x4, .f32⟩
  | 68 => ⟨S1000000x4, .f32⟩
  | 69 => ⟨S1000000x4, .f32⟩
  | 70 => ⟨S1000000, .i32⟩
  | 71 => ⟨S17000000, .i32⟩
  | 72 => ⟨S17000000, .i32⟩
  | 73 => ⟨S_, .f32⟩
  | 74 => ⟨S17000000, .f32⟩
  | 75 => ⟨S_, .f32⟩
  | 76 => ⟨S1000000, .f32⟩
  | 77 => ⟨S17000000x1, .i32⟩
  | 78 => ⟨S1000000, .f32⟩
  | 79 => ⟨S_, .f32⟩
  | 80 => ⟨S1000000, .f32⟩
  | 81 => ⟨S1000000, .i1⟩
  | 82 => ⟨S1000000, .f32⟩
  | 83 => ⟨S_, .f32⟩
  | 84 => ⟨S_, .f32⟩
  | 85 => ⟨S1000000, .f32⟩
  | 86 => ⟨S1000000, .f32⟩
  | 87 => ⟨S_, .i32⟩
  | 88 => ⟨S17000000, .i32⟩
  | 89 => ⟨S17000000, .i1⟩
  | 90 => ⟨S_, .i32⟩
  | 91 => ⟨S17000000, .i32⟩
  | 92 => ⟨S17000000, .i32⟩
  | 93 => ⟨S17000000, .i32⟩
  | 94 => ⟨S17000000x1, .i32⟩
  | 95 => ⟨S17000000, .f32⟩
  | 96 => ⟨S_, .i32⟩
  | 97 => ⟨S17000000, .i32⟩
  | 98 => ⟨S17000000, .i1⟩
  | 99 => ⟨S_, .i32⟩
  | 100 => ⟨S17000000, .i32⟩
  | 101 => ⟨S17000000, .i32⟩
  | 102 => ⟨S17000000, .i32⟩
  | 103 => ⟨S17000000x1, .i32⟩
  | 104 => ⟨S17000000, .f32⟩
  | 105 => ⟨S17000000, .f32⟩
  | 106 => ⟨S_, .i32⟩
  | 107 => ⟨S17000000, .i32⟩
  | 108 => ⟨S17000000, .i1⟩
  | 109 => ⟨S_, .i32⟩
  | 110 => ⟨S17000000, .i32⟩
  | 111 => ⟨S17000000, .i32⟩
  | 112 => ⟨S17000000, .i32⟩
  | 113 => ⟨S17000000x1, .i32⟩
  | 114 => ⟨S17000000x4, .f32⟩
  | 115 => ⟨S17000000x1, .f32⟩
  | 116 => ⟨S17000000x4, .f32⟩
  | 117 => ⟨S17000000x4, .f32⟩
  | 118 => ⟨S_, .f32⟩
  | 119 => ⟨S1000000x4, .f32⟩
  | 120 => ⟨S17000000x1, .i32⟩
  | 121 => ⟨S1000000x4, .f32⟩
  | 122 => ⟨S1x4, .f32⟩
  | 123 => ⟨S1000000x4, .f32⟩
  | 124 => ⟨S1000000x4, .f32⟩
  | 125 => ⟨S_, .i32⟩
  | 126 => ⟨S16000000, .i32⟩
  | 127 => ⟨S16000000, .i1⟩
  | _ => ⟨S1000000x1, .f32⟩

abbrev hbmTy0_1 (i : Nat) : BufTy := match i % 128 with
  | 0 => ⟨S_, .i32⟩
  | 1 => ⟨S16000000, .i32⟩
  | 2 => ⟨S16000000, .i32⟩
  | 3 => ⟨S16000000, .i32⟩
  | 4 => ⟨S16000000x1, .i32⟩
  | 5 => ⟨S16000000x4, .f32⟩
  | 6 => ⟨S_, .i32⟩
  | 7 => ⟨S16000000, .i32⟩
  | 8 => ⟨S16000000, .i1⟩
  | 9 => ⟨S_, .i32⟩
  | 10 => ⟨S16000000, .i32⟩
  | 11 => ⟨S16000000, .i32⟩
  | 12 => ⟨S16000000, .i32⟩
  | 13 => ⟨S16000000x1, .i32⟩
  | 14 => ⟨S16000000x4, .f32⟩
  | 15 => ⟨S16000000x4, .f32⟩
  | 16 => ⟨S_, .f32⟩
  | 17 => ⟨S16000000, .f32⟩
  | _ => ⟨S1000000x1, .f32⟩

abbrev hbmTy (i : Nat) : BufTy := match i / 128 with
  | 0 => hbmTy0_0 i
  | 1 => hbmTy0_1 i
  | _ => ⟨S1000000x1, .f32⟩

abbrev bufTy : (tb : Table) → Fin (tcTables nBuf tb) → BufTy
  | .hbm, ⟨i, _⟩ => hbmTy i
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_20 : Ref sig .tc := ⟨.hbm, 125, rfl⟩
abbrev main_v91 : Ref sig .tc := ⟨.hbm, 126, rfl⟩
abbrev main_v92 : Ref sig .tc := ⟨.hbm, 127, rfl⟩
abbrev main_c_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_c_22 : Ref sig .tc := ⟨.hbm, 134, rfl⟩
abbrev main_v98 : Ref sig .tc := ⟨.hbm, 135, rfl⟩
abbrev main_v99 : Ref sig .tc := ⟨.hbm, 136, rfl⟩
abbrev main_c_23 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_24 : Ref sig .tc := ⟨.hbm, 144, rfl⟩
abbrev main_v106 : Ref sig .tc := ⟨.hbm, 145, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  concatenates_S16000000_S1000000_S17000000_d0 : Shape.Concatenates [S16000000, S1000000] S17000000 0
  bcast_S_S17000000 : S_.BroadcastsInDim S17000000 (![] : Fin 0 → Fin S17000000.rank)
  bcast_S_S1000000 : S_.BroadcastsInDim S1000000 (![] : Fin 0 → Fin S1000000.rank)
  bcast_S17000000_S17000000x1_0 : S17000000.BroadcastsInDim S17000000x1 (![0] : Fin 1 → Fin S17000000x1.rank)
  bcast_S17000000x1_S17000000x4_0_1 : S17000000x1.BroadcastsInDim S17000000x4 (![0, 1] : Fin 2 → Fin S17000000x4.rank)
  bcast_S_S1000000x4 : S_.BroadcastsInDim S1000000x4 (![] : Fin 0 → Fin S1000000x4.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  bcast_S_S16000000 : S_.BroadcastsInDim S16000000 (![] : Fin 0 → Fin S16000000.rank)
  bcast_S16000000_S16000000x1_0 : S16000000.BroadcastsInDim S16000000x1 (![0] : Fin 1 → Fin S16000000x1.rank)
  reducesTo_S16000000x4_S16000000_d1 : S16000000x4.ReducesTo [1] S16000000
  h_S_ : 0 < S_.numel
  dot_S1000000x1_S1x4_S1000000x4_1_0_0_1_n_n_wf : DotDims.WF S1000000x1 S1x4 S1000000x4 [1] [0] [0] [1] [] []
  scatter_S1000000_S17000000x1_S17000000_n_0_0_1_wf : ScatterDims.WF S1000000 S17000000x1 S17000000 [] [0] [0] 1
  gather_S1000000_S17000000x1_S17000000_n_0_n_n_0_1_1_wf : GatherDims.WF S1000000 S17000000x1 S17000000 [] [0] [] [0] [] 1 ![1]
  gather_S1000000x4_S17000000x1_S17000000x4_1_0_n_n_0_1_14_wf : GatherDims.WF S1000000x4 S17000000x1 S17000000x4 [1] [0] [] [0] [] 1 ![1, 4]
  scatter_S1000000x4_S17000000x1_S17000000x4_1_0_0_1_wf : ScatterDims.WF S1000000x4 S17000000x1 S17000000x4 [1] [0] [0] 1
  dot_S1000000x4_S4x4_S1000000x4_1_0_0_1_n_n_wf : DotDims.WF S1000000x4 S4x4 S1000000x4 [1] [0] [0] [1] [] []
  gather_S1000000x4_S16000000x1_S16000000x4_1_0_n_n_0_1_14_wf : GatherDims.WF S1000000x4 S16000000x1 S16000000x4 [1] [0] [] [0] [] 1 ![1, 4]

variable [Facts₀]

def dot_S1000000x1_S1x4_S1000000x4_1_0_0_1_n_n : DotDims S1000000x1 S1x4 S1000000x4 where
  lhsContracting := [1]
  rhsContracting := [0]
  lhsNonContracting := [0]
  rhsNonContracting := [1]
  lhsBatch := []
  rhsBatch := []
  wf := dot_S1000000x1_S1x4_S1000000x4_1_0_0_1_n_n_wf
def scatter_S1000000_S17000000x1_S17000000_n_0_0_1 : ScatterDims S1000000 S17000000x1 S17000000 where
  updateWindowDims := []
  insertedWindowDims := [0]
  scatterDimsToOperandDims := [0]
  indexVectorDim := 1
  wf := scatter_S1000000_S17000000x1_S17000000_n_0_0_1_wf
def gather_S1000000_S17000000x1_S17000000_n_0_n_n_0_1_1 : GatherDims S1000000 S17000000x1 S17000000 where
  offsetDims := []
  collapsedSliceDims := [0]
  operandBatchingDims := []
  startIndicesBatchingDims := []
  startIndexMap := [0]
  indexVectorDim := 1
  sliceSizes := ![1]
  wf := gather_S1000000_S17000000x1_S17000000_n_0_n_n_0_1_1_wf
def gather_S1000000x4_S17000000x1_S17000000x4_1_0_n_n_0_1_14 : GatherDims S1000000x4 S17000000x1 S17000000x4 where
  offsetDims := [1]
  collapsedSliceDims := [0]
  operandBatchingDims := []
  startIndicesBatchingDims := []
  startIndexMap := [0]
  indexVectorDim := 1
  sliceSizes := ![1, 4]
  wf := gather_S1000000x4_S17000000x1_S17000000x4_1_0_n_n_0_1_14_wf
def scatter_S1000000x4_S17000000x1_S17000000x4_1_0_0_1 : ScatterDims S1000000x4 S17000000x1 S17000000x4 where
  updateWindowDims := [1]
  insertedWindowDims := [0]
  scatterDimsToOperandDims := [0]
  indexVectorDim := 1
  wf := scatter_S1000000x4_S17000000x1_S17000000x4_1_0_0_1_wf
def dot_S1000000x4_S4x4_S1000000x4_1_0_0_1_n_n : DotDims S1000000x4 S4x4 S1000000x4 where
  lhsContracting := [1]
  rhsContracting := [0]
  lhsNonContracting := [0]
  rhsNonContracting := [1]
  lhsBatch := []
  rhsBatch := []
  wf := dot_S1000000x4_S4x4_S1000000x4_1_0_0_1_n_n_wf
def gather_S1000000x4_S16000000x1_S16000000x4_1_0_n_n_0_1_14 : GatherDims S1000000x4 S16000000x1 S16000000x4 where
  offsetDims := [1]
  collapsedSliceDims := [0]
  operandBatchingDims := []
  startIndicesBatchingDims := []
  startIndexMap := [0]
  indexVectorDim := 1
  sliceSizes := ![1, 4]
  wf := gather_S1000000x4_S16000000x1_S16000000x4_1_0_n_n_0_1_14_wf

class Facts : Prop extends Facts₀ where

variable [Facts]
-- ==== Proof.LibSegmentDims.lean ====
/-
  The dimension numbers of the two indexed host operations a segment sum is lowered to, for any extents.

  A row gather takes an [N, C] array and an [E, 1] array of row indices and returns the [E, C] array of the rows named;
  an accumulating row scatter adds the rows of an [E, C] array into an [N, C] array at the rows named. The same two
  operations on a vector of length N (one entry per index instead of a row) read and add single entries. Each record
  here is the literal list of axes the host operation carries, with the side conditions on the shapes a parameter.
-/
import Idealize.ShloMosaic.PureOps.Dims

namespace Cert.SegmentDims

open Idealize.ShloMosaic

/-- Rows of an [N, C] array gathered at [E, 1] indices into [E, C]: axis 0 is indexed and collapsed, axis 1 is the row. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entries of a vector [N] gathered at [E, 1] indices into [E]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Rows of an [E, C] array added into an [N, C] array at [E, 1] row indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Entries of a vector [E] added into a vector [N] at [E, 1] indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

end Cert.SegmentDims
-- ==== Proof.LibGraphDefs.lean ====
/-
  The host-side stages of a symmetric-normalised graph convolution, as whole-array functions, for any extents.

  With N nodes, E directed edges (source and destination vectors of 32-bit words) and C features:
  the degree of node i is the number of edges whose destination is i, plus one for the node's own loop;
  the normalising factor of a node is the reciprocal square root of its degree where that is positive and zero elsewhere;
  an edge's source is read with a negative word wrapped by the node count and then clamped to a valid row.
  The aggregation is written in two arrangements. In the first, every row is scaled by its node's factor, the scaled rows
  are summed over the edges arriving at a node, and the sum is scaled once more by the destination's factor, the node's
  own row entering with the square of its factor. In the second, the loops are edges like any other (the edge list is
  the given edges followed by one loop per node), and each edge's row is scaled by the product of the factors of its two
  ends before the sum. The definitions below spell the two arrangements with the host operations that compute them.
-/
import Idealize.ShloMosaic.PureOps.Ideal
import Idealize.ShloMosaic.Lib.ValueIdx
import proofs.«154712_j38147899523171_2_alg».proof.Proof.LibSegmentDims

noncomputable section

namespace Cert.GraphStages

open Idealize.ShloMosaic Idealize.ShloMosaic.ValueIdx Cert.SegmentDims

/-- The rank-0 shape, a vector of n entries, an a-by-b matrix. -/
abbrev S0 : Shape := ⟨0, ![]⟩
abbrev Vc (n : ℕ) : Shape := ⟨1, ![n]⟩
abbrev Mx (a b : ℕ) : Shape := ⟨2, ![a, b]⟩

variable {N E C : ℕ}

/-- One index word with a negative value wrapped by the node count n: b + n when b is negative, b otherwise. -/
def wrap1 (n b : BitVec 32) : BitVec 32 :=
  Scalar.select (IntOp.cmpi .slt b 0#32) (IntOp.addi b n) b

/-- The row a wrapped index word names: its signed value clamped into [0, N − 1]. -/
def nodeIdx (N : ℕ) (hN : 0 < N) (b : BitVec 32) : Fin N := ⟨min b.toInt.toNat (N - 1), by omega⟩

/-- An index vector with its negative entries wrapped by the node count. -/
def wrapNeg (n : BitVec 32) (hzE : S0.BroadcastsInDim (Vc E) ![]) (x : IVec (Vc E) 32) : IVec (Vc E) 32 :=
  select (cmpi .slt x (broadcastInDim (Vc E) ![] hzE (constantI S0 32 0#32)))
    (addi x (broadcastInDim (Vc E) ![] hzE (constantI S0 32 n))) x

/-- The normalising factor of one degree value: its reciprocal square root where positive, zero elsewhere. -/
def dinv1 (x : EReal) : EReal :=
  Scalar.select (FloatOps.cmpf (F := Ideal) (φ := .f32) .ogt x (Ideal.ofBits .f32 0x00000000#32))
    (FloatOps.hostUnary (F := Ideal) (φ := .f32) .rsqrt x) (Ideal.ofBits .f32 0x00000000#32)

/-- The normalising factors of a degree vector, entry by entry. -/
def dinvOf (hzN : S0.BroadcastsInDim (Vc N) ![]) (deg : FVec Ideal (Vc N) .f32) : FVec Ideal (Vc N) .f32 :=
  select (cmpf (F := Ideal) .ogt deg (broadcastInDim (Vc N) ![] hzN (constant (F := Ideal) S0 .f32 0x00000000#32)))
    (Host.rsqrt (F := Ideal) deg)
    (broadcastInDim (Vc N) ![] hzN (id (constant (F := Ideal) S0 .f32 0x00000000#32)))

/-- Degrees, loops added afterwards: ones summed over the edges arriving at each node, then one more. -/
def degLoopsAdded (hzN : S0.BroadcastsInDim (Vc N) ![]) (hzE : S0.BroadcastsInDim (Vc E) ![])
    (hE1 : (Vc E).BroadcastsInDim (Mx E 1) ![0]) (swf : ScatterDims.WF (Vc N) (Mx E 1) (Vc E) [] [0] [0] 1)
    (dst : IVec (Vc E) 32) : FVec Ideal (Vc N) .f32 :=
  addf
    (Host.scatterAdd (F := Ideal) (vecScatterDims N E swf)
      (broadcastInDim (Vc N) ![] hzN (constant (F := Ideal) S0 .f32 0x00000000#32))
      (broadcastInDim (Mx E 1) ![0] hE1 dst)
      (broadcastInDim (Vc E) ![] hzE (constant (F := Ideal) S0 .f32 0x3F800000#32)))
    (broadcastInDim (Vc N) ![] hzN (constant (F := Ideal) S0 .f32 0x3F800000#32))

/-- Degrees, loops among the edges: ones summed over the edges (loops included) arriving at each node. -/
def degLoopsListed (hzN : S0.BroadcastsInDim (Vc N) ![]) (hzE : S0.BroadcastsInDim (Vc E) ![])
    (hE1 : (Vc E).BroadcastsInDim (Mx E 1) ![0]) (swf : ScatterDims.WF (Vc N) (Mx E 1) (Vc E) [] [0] [0] 1)
    (d : IVec (Vc E) 32) : FVec Ideal (Vc N) .f32 :=
  Host.scatterAdd (F := Ideal) (vecScatterDims N E swf)
    (broadcastInDim (Vc N) ![] hzN (constant (F := Ideal) S0 .f32 0x00000000#32))
    (broadcastInDim (Mx E 1) ![0] hE1 d)
    (broadcastInDim (Vc E) ![] hzE (constant (F := Ideal) S0 .f32 0x3F800000#32))

/-- The aggregation with the factors applied to rows before and after the sum over arriving edges, the node's own row
    entering with the square of its factor. -/
def aggScaledRows (n : BitVec 32) (hzE : S0.BroadcastsInDim (Vc E) ![]) (hE1 : (Vc E).BroadcastsInDim (Mx E 1) ![0])
    (hN1 : (Vc N).BroadcastsInDim (Mx N 1) ![0]) (hNC : (Mx N 1).BroadcastsInDim (Mx N C) ![0, 1])
    (hzNC : S0.BroadcastsInDim (Mx N C) ![])
    (gwf : GatherDims.WF (Mx N C) (Mx E 1) (Mx E C) [1] [0] [] [0] [] 1 ![1, C])
    (swf : ScatterDims.WF (Mx N C) (Mx E 1) (Mx E C) [1] [0] [0] 1)
    (dinv : FVec Ideal (Vc N) .f32) (src dst : IVec (Vc E) 32) (h : FVec Ideal (Mx N C) .f32) :
    FVec Ideal (Mx N C) .f32 :=
  addf
    (mulf (broadcastInDim (Mx N C) ![0, 1] hNC (broadcastInDim (Mx N 1) ![0] hN1 dinv))
      (Host.scatterAdd (F := Ideal) (rowScatterDims N E C swf)
        (broadcastInDim (Mx N C) ![] hzNC (constant (F := Ideal) S0 .f32 0x00000000#32))
        (broadcastInDim (Mx E 1) ![0] hE1 dst)
        (Host.gather (rowGatherDims N E C gwf)
          (mulf h (broadcastInDim (Mx N C) ![0, 1] hNC (broadcastInDim (Mx N 1) ![0] hN1 dinv)))
          (broadcastInDim (Mx E 1) ![0] hE1 (wrapNeg n hzE src)))))
    (mulf (broadcastInDim (Mx N C) ![0, 1] hNC (broadcastInDim (Mx N 1) ![0] hN1 (mulf dinv dinv))) h)

/-- The aggregation with each edge's row scaled by the product of the factors of its two ends, loops listed among the
    edges. -/
def aggScaledEdges (n : BitVec 32) (hzE : S0.BroadcastsInDim (Vc E) ![]) (hE1 : (Vc E).BroadcastsInDim (Mx E 1) ![0])
    (hEC : (Mx E 1).BroadcastsInDim (Mx E C) ![0, 1]) (hzNC : S0.BroadcastsInDim (Mx N C) ![])
    (gvwf : GatherDims.WF (Vc N) (Mx E 1) (Vc E) [] [0] [] [0] [] 1 ![1])
    (gwf : GatherDims.WF (Mx N C) (Mx E 1) (Mx E C) [1] [0] [] [0] [] 1 ![1, C])
    (swf : ScatterDims.WF (Mx N C) (Mx E 1) (Mx E C) [1] [0] [0] 1)
    (dinv : FVec Ideal (Vc N) .f32) (s d : IVec (Vc E) 32) (h : FVec Ideal (Mx N C) .f32) :
    FVec Ideal (Mx N C) .f32 :=
  Host.scatterAdd (F := Ideal) (rowScatterDims N E C swf)
    (broadcastInDim (Mx N C) ![] hzNC (constant (F := Ideal) S0 .f32 0x00000000#32))
    (broadcastInDim (Mx E 1) ![0] hE1 d)
    (mulf
      (Host.gather (rowGatherDims N E C gwf) h (broadcastInDim (Mx E 1) ![0] hE1 (wrapNeg n hzE s)))
      (broadcastInDim (Mx E C) ![0, 1] hEC (broadcastInDim (Mx E 1) ![0] hE1
        (mulf
          (Host.gather (vecGatherDims N E gvwf) dinv (broadcastInDim (Mx E 1) ![0] hE1 (wrapNeg n hzE s)))
          (Host.gather (vecGatherDims N E gvwf) dinv (broadcastInDim (Mx E 1) ![0] hE1 (wrapNeg n hzE d)))))))

end Cert.GraphStages

end
-- ==== Proof.LibIndexedRows.lean ====
/-
  The host's row gather and accumulating row scatter, read at an index, for any extents and any index width.
  A gather of rows of an [N, C] table (or of entries of an [N] vector) at an [E, 1] array of start indices reads the
  row whose number is the start index taken signed and clamped into [0, N - 1].  An accumulating scatter of the rows
  of an [E, C] array (or the entries of an [E] vector) into an [N, C] table (an [N] vector) adds, at row i, exactly the
  update rows whose index, taken signed and not clamped, equals i; indices outside [0, N) contribute nothing.
-/
import Idealize.ShloMosaic.PureOps.Ideal
import Idealize.ShloMosaic.PureOps.Ideal.Laws
import Idealize.ShloMosaic.Lib.ValueIdx
import Idealize.ShloMosaic.Lib.Pipeline.Value
import proofs.«154712_j38147899523171_2_alg».proof.Proof.LibSegmentDims

noncomputable section

open scoped BigOperators

namespace Cert.LibIndexedRows

open Idealize.ShloMosaic Idealize.ShloMosaic.ValueIdx Cert.SegmentDims

/-! ## Where an update lands -/

/-- An update index lands on operand index `i` exactly when, on every operand axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hg a
      have h1 := congrArg Fin.val (congrFun hg a)
      have h2 := h a
      simp only at h1
      omega
    · intro hg
      funext a
      refine Fin.ext ?_
      have h1 := hg a
      have h2 := h a
      simp only
      omega
  · rename_i h
    constructor
    · intro hn; exact absurd hn (by simp)
    · intro hg
      exfalso
      apply h
      intro a
      have h1 := hg a
      have h2 := (i a).isLt
      omega

/-! ## Rows of a table: scatter -/

section RowScatter
variable {N E C w : Nat} (wf : ScatterDims.WF ⟨2, ![N, C]⟩ ⟨2, ![E, 1]⟩ ⟨2, ![E, C]⟩ [1] [0] [0] 1)

/-- On the row axis the start is the update row's index, read signed. -/
theorem rowScatter_start0 (idx : IVec ⟨2, ![E, 1]⟩ w) (e : Fin E) (f' : Fin C) :
    (rowScatterDims N E C wf).start (ix2 e f') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e f') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the start is zero. -/
theorem rowScatter_start1 (idx : IVec ⟨2, ![E, 1]⟩ w) (j : (⟨2, ![E, C]⟩ : Shape).Idx) :
    (rowScatterDims N E C wf).start j idx 1 = 0 := by
  unfold ScatterDims.start
  have hk : (1 : Fin 2) ∉ (rowScatterDims N E C wf).scatterDimsToOperandDims :=
    (by decide : (1 : Fin 2) ∉ ([0] : List (Fin 2)))
  rw [dif_neg hk]

/-- On the row axis the window coordinate is zero. -/
theorem rowScatter_window0 (j : (⟨2, ![E, C]⟩ : Shape).Idx) : (rowScatterDims N E C wf).window j 0 = 0 := by
  unfold ScatterDims.window
  have hk : (0 : Fin 2) ∉ (rowScatterDims N E C wf).sKept :=
    (by decide : (0 : Fin 2) ∉ (List.finRange 2).filter (· ∉ ([0] : List (Fin 2))))
  rw [dif_neg hk]

/-- On the column axis the window coordinate is the update's column. -/
theorem rowScatter_window1 (e : Fin E) (f' : Fin C) : (rowScatterDims N E C wf).window (ix2 e f') 1 = f'.val := by
  unfold ScatterDims.window
  have hk : (1 : Fin 2) ∈ (rowScatterDims N E C wf).sKept :=
    (by decide : (1 : Fin 2) ∈ (List.finRange 2).filter (· ∉ ([0] : List (Fin 2))))
  rw [dif_pos hk]
  rfl

/-- Update `(e, f')` lands on `(i, f)` exactly when its row index, read signed, is `i` and its column is `f`. -/
theorem rowScatter_resultIdx?_iff (idx : IVec ⟨2, ![E, 1]⟩ w) (e : Fin E) (f' : Fin C) (i : Fin N) (f : Fin C) :
    (rowScatterDims N E C wf).resultIdx? (ix2 e f') idx = some (ix2 i f) ↔
      (idx (ix2 e (0 : Fin 1))).toInt = (i.val : ℤ) ∧ f' = f := by
  rw [resultIdx?_eq_some_iff]
  constructor
  · intro h
    have h0 := h 0
    have h1 := h 1
    rw [rowScatter_start0, rowScatter_window0] at h0
    rw [rowScatter_start1, rowScatter_window1] at h1
    refine ⟨?_, Fin.ext ?_⟩
    · simp only [Nat.cast_zero, add_zero] at h0
      exact h0
    · simp only [zero_add, Nat.cast_inj] at h1
      exact h1
  · rintro ⟨ht, rfl⟩ a
    match a with
    | ⟨0, _⟩ =>
      show (rowScatterDims N E C wf).start (ix2 e f') idx 0 + ((rowScatterDims N E C wf).window (ix2 e f') 0 : ℤ) = _
      rw [rowScatter_start0, rowScatter_window0, ht]; simp
    | ⟨1, _⟩ =>
      show (rowScatterDims N E C wf).start (ix2 e f') idx 1 + ((rowScatterDims N E C wf).window (ix2 e f') 1 : ℤ) = _
      rw [rowScatter_start1, rowScatter_window1]; simp

/-- THE ROW SCATTER READ AT `(i, f)`: the table's entry plus the entries in column `f` of the update rows whose index,
    read signed and not clamped, is `i`. -/
theorem scatterAdd_rows_apply (x : FVec Ideal ⟨2, ![N, C]⟩ .f32) (idx : IVec ⟨2, ![E, 1]⟩ w)
    (upd : FVec Ideal ⟨2, ![E, C]⟩ .f32) (i : Fin N) (f : Fin C) :
    Host.scatterAdd (F := Ideal) (rowScatterDims N E C wf) x idx upd (ix2 i f) =
      x (ix2 i f) + ∑ e : Fin E, if (idx (ix2 e (0 : Fin 1))).toInt = (i.val : ℤ) then upd (ix2 e f) else 0 := by
  show x (ix2 i f) + ∑ j ∈ Finset.univ.filter
      (fun j => (rowScatterDims N E C wf).resultIdx? j idx = some (ix2 i f)), upd j = _
  congr 1
  rw [Finset.sum_filter, sum_idx2]
  refine Finset.sum_congr rfl fun e _ => ?_
  simp only [rowScatter_resultIdx?_iff]
  by_cases ht : (idx (ix2 e (0 : Fin 1))).toInt = (i.val : ℤ)
  · simp only [ht, true_and, if_true]
    exact Finset.sum_ite_eq' Finset.univ f (fun f' => upd (ix2 e f')) |>.trans (if_pos (Finset.mem_univ f))
  · simp only [ht, false_and, if_false, Finset.sum_const_zero]

end RowScatter

/-! ## Entries of a vector: scatter -/

/-- A rank-1 index set is its one coordinate range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {M : Type*} [AddCommMonoid M] {n : Nat} (g : (⟨1, ![n]⟩ : Shape).Idx → M) :
    ∑ j, g j = ∑ a : Fin n, g (ix1 a) := by
  rw [← Equiv.sum_comp (idxEquiv1 (n := n)).symm g]
  rfl

section VecScatter
variable {N E w : Nat} (wf : ScatterDims.WF ⟨1, ![N]⟩ ⟨2, ![E, 1]⟩ ⟨1, ![E]⟩ [] [0] [0] 1)

/-- The start is the update entry's index, read signed. -/
theorem vecScatter_start0 (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- There is no window: the window coordinate is zero. -/
theorem vecScatter_window0 (j : (⟨1, ![E]⟩ : Shape).Idx) : (vecScatterDims N E wf).window j 0 = 0 := by
  unfold ScatterDims.window
  have hk : (0 : Fin 1) ∉ (vecScatterDims N E wf).sKept :=
    (by decide : (0 : Fin 1) ∉ (List.finRange 1).filter (· ∉ ([0] : List (Fin 1))))
  rw [dif_neg hk]

/-- Update `e` lands on `i` exactly when its index, read signed, is `i`. -/
theorem vecScatter_resultIdx?_iff (idx : IVec ⟨2, ![E, 1]⟩ w) (e : Fin E) (i : Fin N) :
    (vecScatterDims N E wf).resultIdx? (ix1 e) idx = some (ix1 i) ↔ (idx (ix2 e (0 : Fin 1))).toInt = (i.val : ℤ) := by
  rw [resultIdx?_eq_some_iff]
  constructor
  · intro h
    have h0 := h 0
    rw [vecScatter_start0, vecScatter_window0, Nat.cast_zero, add_zero] at h0
    exact h0
  · intro ht a
    obtain rfl : a = 0 := Subsingleton.elim _ _
    show (vecScatterDims N E wf).start (ix1 e) idx 0 + ((vecScatterDims N E wf).window (ix1 e) 0 : ℤ) = (i.val : ℤ)
    rw [vecScatter_start0, vecScatter_window0, ht, Nat.cast_zero, add_zero]

/-- THE VECTOR SCATTER READ AT `i`: the vector's entry plus the update entries whose index, read signed and not
    clamped, is `i`. -/
theorem scatterAdd_vec_apply (x : FVec Ideal ⟨1, ![N]⟩ .f32) (idx : IVec ⟨2, ![E, 1]⟩ w)
    (upd : FVec Ideal ⟨1, ![E]⟩ .f32) (i : Fin N) :
    Host.scatterAdd (F := Ideal) (vecScatterDims N E wf) x idx upd (ix1 i) =
      x (ix1 i) + ∑ e : Fin E, if (idx (ix2 e (0 : Fin 1))).toInt = (i.val : ℤ) then upd (ix1 e) else 0 := by
  show x (ix1 i) + ∑ j ∈ Finset.univ.filter
      (fun j => (vecScatterDims N E wf).resultIdx? j idx = some (ix1 i)), upd j = _
  congr 1
  rw [Finset.sum_filter, sum_idx1]
  refine Finset.sum_congr rfl fun e _ => ?_
  simp only [vecScatter_resultIdx?_iff]

end VecScatter

/-! ## Rows of a table: gather -/

section RowGather
variable {α : Type} {N E C w : Nat}

/-- THE ROW GATHER READ AT `(e, f)`: column `f` of the row whose number is the start index `idx[e, 0]`, read signed and
    clamped into `[0, N - 1]`. -/
theorem gather_rows_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N E C wf) x idx (ix2 e f) =
      x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N E C wf).start (ix2 e f) idx 0 + (rowGatherDims N E C wf).batchCoord (ix2 e f) 0 +
      (rowGatherDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e f) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e f) idx 1 + (rowGatherDims N E C wf).batchCoord (ix2 e f) 1 +
      (rowGatherDims N E C wf).offCoord (ix2 e f) 1 = f.val
    rw [GatherDims.batchCoord_eq_zero _ _ _ List.not_mem_nil]
    have hs : (rowGatherDims N E C wf).start (ix2 e f) idx 1 = 0 := by
      unfold GatherDims.start
      have hk : (1 : Fin 2) ∉ (rowGatherDims N E C wf).startIndexMap :=
        (by decide : (1 : Fin 2) ∉ ([0] : List (Fin 2)))
      rw [dif_neg hk]
    have ho : (rowGatherDims N E C wf).offCoord (ix2 e f) 1 = f.val := by
      unfold GatherDims.offCoord
      have hk : (1 : Fin 2) ∈ (rowGatherDims N E C wf).sKept :=
        (by decide : (1 : Fin 2) ∈ (List.finRange 2).filter (· ∉ (([0] : List (Fin 2)) ++ [])))
      rw [dif_pos hk]
      rfl
    rw [hs, ho]
    simp only [Nat.zero_add]

end RowGather

/-! ## Entries of a vector: gather -/

section VecGather
variable {α : Type} {N E w : Nat}

/-- THE VECTOR GATHER READ AT `e`: the entry at the start index `idx[e, 0]`, read signed and clamped into
    `[0, N - 1]`. -/
theorem gather_vec_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) =
      x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0 +
    (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end VecGather

end Cert.LibIndexedRows

end
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibGraphReads.lean ====
/-
  The stages of the symmetric-normalised graph convolution, read at an index.

  Each whole-array stage becomes a formula in its entries: a wrapped index vector reads entry by entry, the normalising
  factors read entry by entry, a degree is a sum over the edges of one for every edge arriving at the node, and the
  aggregation at (i, f), in either arrangement, is a sum over the edges arriving at node i of the source row's entry f
  times normalising factors, the source read with its negative words wrapped and then clamped to a valid row.
  The normalising factor of any extended real is nonnegative and never plus infinity.
-/
import Idealize.ShloMosaic.PureOps.Ideal
import Idealize.ShloMosaic.PureOps.Ideal.Laws
import Idealize.ShloMosaic.Lib.ValueIdx
import Idealize.ShloMosaic.Lib.Pipeline.Value
import proofs.«154712_j38147899523171_2_alg».proof.Proof.LibGraphDefs
import proofs.«154712_j38147899523171_2_alg».proof.Proof.LibIndexedRows
import proofs.«154712_j38147899523171_2_alg».proof.Proof.LibInDimLayout

noncomputable section

open scoped BigOperators

namespace Cert.GraphStages

open Idealize.ShloMosaic Idealize.ShloMosaic.ValueIdx Cert.SegmentDims Cert.LibIndexedRows Cert.LibInDimLayout

variable {N E C : ℕ}

/-! ## Entry-by-entry stages -/

/-- A scalar constant spread over any shape reads the constant's value at every index. -/
theorem scalarSpread_apply {s : Shape} (hz : S0.BroadcastsInDim s ![]) (b : BitVec 32) (i : s.Idx) :
    broadcastInDim s ![] hz (constant (F := Ideal) S0 .f32 b) i = Ideal.ofBits .f32 b := rfl

/-- The wrapped index vector at e is the wrapped word at e. -/
theorem wrapNeg_apply (n : BitVec 32) (hzE : S0.BroadcastsInDim (Vc E) ![]) (x : IVec (Vc E) 32) (e : Fin E) :
    wrapNeg n hzE x (ix1 e) = wrap1 n (x (ix1 e)) := rfl

/-- The normalising factors at i are the normalising factor of the degree at i. -/
theorem dinvOf_apply (hzN : S0.BroadcastsInDim (Vc N) ![]) (deg : FVec Ideal (Vc N) .f32) (i : Fin N) :
    dinvOf hzN deg (ix1 i) = dinv1 (deg (ix1 i)) := rfl

/-- The scalar zero spread over any shape is zero at every index. -/
theorem zeroSpread_apply {s : Shape} (hz : S0.BroadcastsInDim s ![]) (i : s.Idx) :
    broadcastInDim s ![] hz (constant (F := Ideal) S0 .f32 0x00000000#32) i = 0 := Ideal.ofBits_zero_f32

/-- The scalar one spread over any shape is one at every index. -/
theorem oneSpread_apply {s : Shape} (hz : S0.BroadcastsInDim s ![]) (i : s.Idx) :
    broadcastInDim s ![] hz (constant (F := Ideal) S0 .f32 0x3F800000#32) i = Ideal.ofBits .f32 0x3F800000#32 := rfl

/-- A vector laid out as a column reads, at (i, u), the vector at i. -/
theorem column_apply {α : Type} {A : ℕ} (hA1 : (Vc A).BroadcastsInDim (Mx A 1) ![0]) (v : (Vc A).Idx → α)
    (i : Fin A) (u : Fin 1) : broadcastInDim (Mx A 1) ![0] hA1 v (ix2 i u) = v (ix1 i) :=
  inDim_a_a1_apply v hA1 i u

/-- A column spread over B columns reads, at (i, j), the column at (i, 0). -/
theorem spreadColumn_apply {α : Type} {A B : ℕ} (hAB : (Mx A 1).BroadcastsInDim (Mx A B) ![0, 1])
    (v : (Mx A 1).Idx → α) (i : Fin A) (j : Fin B) :
    broadcastInDim (Mx A B) ![0, 1] hAB v (ix2 i j) = v (ix2 i (0 : Fin 1)) :=
  inDim_a1_ab_apply v hAB i j

/-! ## Gathers at wrapped indices -/

/-- A wrapped index vector laid out as a column reads, at (e, 0), the wrapped word at e. -/
theorem wrappedColumn_apply (n : BitVec 32) (hzE : S0.BroadcastsInDim (Vc E) ![])
    (hE1 : (Vc E).BroadcastsInDim (Mx E 1) ![0]) (x : IVec (Vc E) 32) (e : Fin E) :
    broadcastInDim (Mx E 1) ![0] hE1 (wrapNeg n hzE x) (ix2 e (0 : Fin 1)) = wrap1 n (x (ix1 e)) := by
  rw [inDim_a_a1_apply]
  rfl

/-- Rows gathered at a wrapped index column: entry (e, f) is entry f of the row the wrapped word at e names. -/
theorem gatherRowsWrapped_apply {α : Type} (hN : 0 < N) (n : BitVec 32) (hzE : S0.BroadcastsInDim (Vc E) ![])
    (hE1 : (Vc E).BroadcastsInDim (Mx E 1) ![0])
    (gwf : GatherDims.WF (Mx N C) (Mx E 1) (Mx E C) [1] [0] [] [0] [] 1 ![1, C])
    (x : (Mx N C).Idx → α) (src : IVec (Vc E) 32) (e : Fin E) (f : Fin C) :
    Host.gather (rowGatherDims N E C gwf) x (broadcastInDim (Mx E 1) ![0] hE1 (wrapNeg n hzE src)) (ix2 e f) =
      x (ix2 (nodeIdx N hN (wrap1 n (src (ix1 e)))) f) := by
  rw [gather_rows_apply hN]
  refine congrArg (fun r => x (ix2 r f)) (Fin.ext ?_)
  show min _ (N - 1) = min _ (N - 1)
  rw [wrappedColumn_apply]

/-- Entries gathered at a wrapped index column: entry e is the entry the wrapped word at e names. -/
theorem gatherVecWrapped_apply {α : Type} (hN : 0 < N) (n : BitVec 32) (hzE : S0.BroadcastsInDim (Vc E) ![])
    (hE1 : (Vc E).BroadcastsInDim (Mx E 1) ![0])
    (gvwf : GatherDims.WF (Vc N) (Mx E 1) (Vc E) [] [0] [] [0] [] 1 ![1])
    (x : (Vc N).Idx → α) (src : IVec (Vc E) 32) (e : Fin E) :
    Host.gather (vecGatherDims N E gvwf) x (broadcastInDim (Mx E 1) ![0] hE1 (wrapNeg n hzE src)) (ix1 e) =
      x (ix1 (nodeIdx N hN (wrap1 n (src (ix1 e))))) := by
  rw [gather_vec_apply hN]
  refine congrArg (fun r => x (ix1 r)) (Fin.ext ?_)
  show min _ (N - 1) = min _ (N - 1)
  rw [wrappedColumn_apply]

/-! ## The two arrangements of the aggregation -/

/-- Factors on rows before and after the sum: at (i, f), the factor of i times the sum, over the edges arriving at i,
    of the source row's entry f times the source's factor, plus the squared factor of i times the node's own entry. -/
theorem aggScaledRows_apply (hN : 0 < N) (n : BitVec 32) (hzE : S0.BroadcastsInDim (Vc E) ![])
    (hE1 : (Vc E).BroadcastsInDim (Mx E 1) ![0])
    (hN1 : (Vc N).BroadcastsInDim (Mx N 1) ![0]) (hNC : (Mx N 1).BroadcastsInDim (Mx N C) ![0, 1])
    (hzNC : S0.BroadcastsInDim (Mx N C) ![])
    (gwf : GatherDims.WF (Mx N C) (Mx E 1) (Mx E C) [1] [0] [] [0] [] 1 ![1, C])
    (swf : ScatterDims.WF (Mx N C) (Mx E 1) (Mx E C) [1] [0] [0] 1)
    (dinv : FVec Ideal (Vc N) .f32) (src dst : IVec (Vc E) 32) (h : FVec Ideal (Mx N C) .f32) (i : Fin N) (f : Fin C) :
    aggScaledRows n hzE hE1 hN1 hNC hzNC gwf swf dinv src dst h (ix2 i f)
      = dinv (ix1 i) * (0 + ∑ e : Fin E, if (dst (ix1 e)).toInt = (i.val : ℤ) then
            h (ix2 (nodeIdx N hN (wrap1 n (src (ix1 e)))) f) * dinv (ix1 (nodeIdx N hN (wrap1 n (src (ix1 e))))) else 0)
        + (dinv (ix1 i) * dinv (ix1 i)) * h (ix2 i f) := by
  unfold aggScaledRows
  rw [addf_apply, mulf_apply, mulf_apply, scatterAdd_rows_apply,
    spreadColumn_apply, column_apply, spreadColumn_apply, column_apply, mulf_apply, zeroSpread_apply]
  refine congrArg (fun t => dinv (ix1 i) * (0 + t) + dinv (ix1 i) * dinv (ix1 i) * h (ix2 i f))
    (Finset.sum_congr rfl fun e _ => ?_)
  rw [column_apply, gatherRowsWrapped_apply hN, mulf_apply, spreadColumn_apply, column_apply]

/-- Factors of both ends on each edge's row: at (i, f), the sum, over the edges arriving at i, of the source row's
    entry f times the product of the factors of the edge's two ends. -/
theorem aggScaledEdges_apply (hN : 0 < N) (n : BitVec 32) (hzE : S0.BroadcastsInDim (Vc E) ![])
    (hE1 : (Vc E).BroadcastsInDim (Mx E 1) ![0])
    (hEC : (Mx E 1).BroadcastsInDim (Mx E C) ![0, 1]) (hzNC : S0.BroadcastsInDim (Mx N C) ![])
    (gvwf : GatherDims.WF (Vc N) (Mx E 1) (Vc E) [] [0] [] [0] [] 1 ![1])
    (gwf : GatherDims.WF (Mx N C) (Mx E 1) (Mx E C) [1] [0] [] [0] [] 1 ![1, C])
    (swf : ScatterDims.WF (Mx N C) (Mx E 1) (Mx E C) [1] [0] [0] 1)
    (dinv : FVec Ideal (Vc N) .f32) (s d : IVec (Vc E) 32) (h : FVec Ideal (Mx N C) .f32) (i : Fin N) (f : Fin C) :
    aggScaledEdges n hzE hE1 hEC hzNC gvwf gwf swf dinv s d h (ix2 i f)
      = 0 + ∑ e : Fin E, if (d (ix1 e)).toInt = (i.val : ℤ) then
          h (ix2 (nodeIdx N hN (wrap1 n (s (ix1 e)))) f) *
            (dinv (ix1 (nodeIdx N hN (wrap1 n (s (ix1 e))))) * dinv (ix1 (nodeIdx N hN (wrap1 n (d (ix1 e)))))) else 0 := by
  unfold aggScaledEdges
  rw [scatterAdd_rows_apply, zeroSpread_apply]
  refine congrArg (fun t => 0 + t) (Finset.sum_congr rfl fun e _ => ?_)
  rw [column_apply, mulf_apply, gatherRowsWrapped_apply hN, spreadColumn_apply, column_apply, mulf_apply,
    gatherVecWrapped_apply hN, gatherVecWrapped_apply hN]

/-! ## Degrees -/

/-- Loops added afterwards: the degree of i is one for every edge arriving at i, and one more. -/
theorem degLoopsAdded_apply (hzN : S0.BroadcastsInDim (Vc N) ![]) (hzE : S0.BroadcastsInDim (Vc E) ![])
    (hE1 : (Vc E).BroadcastsInDim (Mx E 1) ![0]) (swf : ScatterDims.WF (Vc N) (Mx E 1) (Vc E) [] [0] [0] 1)
    (dst : IVec (Vc E) 32) (i : Fin N) :
    degLoopsAdded hzN hzE hE1 swf dst (ix1 i)
      = (0 + ∑ e : Fin E, if (dst (ix1 e)).toInt = (i.val : ℤ) then Ideal.ofBits .f32 0x3F800000#32 else 0)
        + Ideal.ofBits .f32 0x3F800000#32 := by
  unfold degLoopsAdded
  rw [addf_apply, scatterAdd_vec_apply, zeroSpread_apply, oneSpread_apply]
  refine congrArg (fun t => (0 + t) + Ideal.ofBits .f32 0x3F800000#32) (Finset.sum_congr rfl fun e _ => ?_)
  rw [column_apply, oneSpread_apply]

/-- Loops among the edges: the degree of i is one for every listed edge arriving at i. -/
theorem degLoopsListed_apply (hzN : S0.BroadcastsInDim (Vc N) ![]) (hzE : S0.BroadcastsInDim (Vc E) ![])
    (hE1 : (Vc E).BroadcastsInDim (Mx E 1) ![0]) (swf : ScatterDims.WF (Vc N) (Mx E 1) (Vc E) [] [0] [0] 1)
    (d : IVec (Vc E) 32) (i : Fin N) :
    degLoopsListed hzN hzE hE1 swf d (ix1 i)
      = 0 + ∑ e : Fin E, if (d (ix1 e)).toInt = (i.val : ℤ) then Ideal.ofBits .f32 0x3F800000#32 else 0 := by
  unfold degLoopsListed
  rw [scatterAdd_vec_apply, zeroSpread_apply]
  refine congrArg (fun t => 0 + t) (Finset.sum_congr rfl fun e _ => ?_)
  rw [column_apply, oneSpread_apply]

/-! ## The normalising factor of one value -/

/-- The normalising factor is the reciprocal square root on the positive values and zero elsewhere. -/
theorem dinv1_eq (x : EReal) : dinv1 x = if 0 < x then Ideal.rsqrt x else 0 := by
  unfold dinv1
  rw [Ideal.ofBits_zero_f32]
  show Scalar.select (Ideal.cmp .ogt x 0) (Ideal.rsqrt x) 0 = _
  simp only [Scalar.select, Ideal.cmp]
  by_cases hx : 0 < x
  · simp [hx]
  · simp [hx]

/-- The normalising factor is never negative: a reciprocal root of a positive real, the limit zero at plus infinity,
    or zero. -/
theorem dinv1_nonneg (x : EReal) : 0 ≤ dinv1 x := by
  rw [dinv1_eq]
  split
  · rename_i hx
    induction x using EReal.rec with
    | bot => exact absurd hx (not_lt_bot)
    | top => rw [Ideal.rsqrt_top]
    | coe r =>
      have hr : 0 < r := by exact_mod_cast hx
      rw [Ideal.rsqrt_coe, if_neg (not_lt.mpr hr.le), if_neg hr.ne']
      exact_mod_cast inv_nonneg.mpr (Real.sqrt_nonneg r)
  · exact le_rfl

/-- The normalising factor is never plus infinity: the reciprocal root is taken of positive values only. -/
theorem dinv1_ne_top (x : EReal) : dinv1 x ≠ ⊤ := by
  rw [dinv1_eq]
  split
  · rename_i hx
    induction x using EReal.rec with
    | bot => exact absurd hx (not_lt_bot)
    | top => rw [Ideal.rsqrt_top]; exact EReal.zero_ne_top
    | coe r =>
      have hr : 0 < r := by exact_mod_cast hx
      rw [Ideal.rsqrt_coe, if_neg (not_lt.mpr hr.le), if_neg hr.ne']
      exact EReal.coe_ne_top _
  · exact EReal.zero_ne_top

end Cert.GraphStages

end
-- ==== Proof.LibConcatPair.lean ====
/-
  Two arrays laid side by side, read at an index.

  A concatenation of two pieces along an axis reads, at an index whose coordinate on that axis is `k`, the first piece at
  `k` when `k` is below the first piece's extent `a`, and otherwise the second piece at `k - a`; the other coordinates pass
  through. Stated here for the two layouts a fused pair of weight matrices and a fused pair of bias vectors have:
  matrices `[n, a]` and `[n, b]` joined along their columns into `[n, c]`, and vectors `[a]` and `[b]` joined into `[c]`.
  (`c = a + b` is part of the hypothesis `h`; the statements never need it spelt out.)
-/
import Idealize.ShloMosaic.Lib.ValueIdx
import Idealize.ShloMosaic.Lib.Pipeline.Value

namespace Idealize.ShloMosaic.ConcatPair

open Idealize.ShloMosaic Idealize.ShloMosaic.ValueIdx

variable {α : Type}

/-- Columns `[0, a)` of `[u | v]` are `u`'s. -/
theorem cols_left {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin a) (hq : q.val = k.val) :
    concatenate (⟨2, ![n, c]⟩ : Shape) 1 [⟨⟨2, ![n, a]⟩, u⟩, ⟨⟨2, ![n, b]⟩, v⟩] h (ix2 p k) = u (ix2 p q) :=
  concatenate_pair_apply_left 1 u v h (ix2 p k) rfl (ix2 p q) (fun d => by
    match d with
    | ⟨0, _⟩ => rfl
    | ⟨1, _⟩ => exact hq)

/-- Columns `[a, a + b)` of `[u | v]` are `v`'s, shifted by `a`. -/
theorem cols_right {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin b) (hq : q.val + a = k.val) :
    concatenate (⟨2, ![n, c]⟩ : Shape) 1 [⟨⟨2, ![n, a]⟩, u⟩, ⟨⟨2, ![n, b]⟩, v⟩] h (ix2 p k) = v (ix2 p q) :=
  concatenate_pair_apply_right 1 u v h (ix2 p k) rfl rfl (ix2 p q) (fun d hd => by
    match d with
    | ⟨0, _⟩ => rfl
    | ⟨1, _⟩ => exact absurd rfl hd) hq

/-- Entries `[0, a)` of the joined vector are `u`'s. -/
theorem vec_left {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin a) (hq : q.val = k.val) :
    concatenate (⟨1, ![c]⟩ : Shape) 0 [⟨⟨1, ![a]⟩, u⟩, ⟨⟨1, ![b]⟩, v⟩] h (ix1 k) = u (ix1 q) :=
  concatenate_pair_apply_left 0 u v h (ix1 k) rfl (ix1 q) (fun d => by
    match d with
    | ⟨0, _⟩ => exact hq)

/-- Entries `[a, a + b)` of the joined vector are `v`'s, shifted by `a`. -/
theorem vec_right {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin b) (hq : q.val + a = k.val) :
    concatenate (⟨1, ![c]⟩ : Shape) 0 [⟨⟨1, ![a]⟩, u⟩, ⟨⟨1, ![b]⟩, v⟩] h (ix1 k) = v (ix1 q) :=
  concatenate_pair_apply_right 0 u v h (ix1 k) rfl rfl (ix1 q) (fun d hd => by
    match d with
    | ⟨0, _⟩ => exact absurd rfl hd) hq

end Idealize.ShloMosaic.ConcatPair
-- ==== Proof.LibLoopEdges.lean ====
/-
  The loops of a graph listed after its edges.

  A graph on N nodes is given by E edges; its edge list with loops is those E edges followed by one loop per node, node
  j's loop at position E + j, E' = E + N positions in all. Index words are 32-bit: a word is read as a signed integer,
  a negative one is wrapped by adding the node count, and the result is clamped to a valid row. Here: a word whose signed
  value is a node's number names that node, wrapping leaves it alone, and a loop's word is such a word (node numbers are
  below 2^31); the joined index vector read on its two parts; and a sum over the E' positions as the sum over the edges
  plus the sum over the loops.
-/
import proofs.«154712_j38147899523171_2_alg».proof.Proof.LibGraphDefs
import proofs.«154712_j38147899523171_2_alg».proof.Proof.LibConcatPair
import Idealize.ShloMosaic.Lib.ValueIdx
import Idealize.ShloMosaic.Lib.Pipeline.Value
import Mathlib.Algebra.BigOperators.Fin

namespace Cert.LoopEdges

open Idealize.ShloMosaic Idealize.ShloMosaic.ValueIdx Cert.GraphStages
open scoped BigOperators

/-! ## Index words -/

/-- A natural number below 2^31, written as a 32-bit word, reads back as itself when the word is read signed. -/
theorem toInt_ofNat_lt {j : ℕ} (hj : j < 2 ^ 31) : (BitVec.ofNat 32 j).toInt = (j : ℤ) := by
  rw [BitVec.toInt_eq_toNat_cond, BitVec.toNat_ofNat]
  have hm : j % 2 ^ 32 = j := Nat.mod_eq_of_lt (by omega)
  rw [hm, if_pos (by omega)]

/-- Wrapping leaves a word that is not negative as it is. -/
theorem wrap1_of_nonneg (n b : BitVec 32) (hb : 0 ≤ b.toInt) : wrap1 n b = b := by
  have hs : b.slt 0#32 = false := by
    simp only [BitVec.slt, BitVec.toInt_zero, decide_eq_false_iff_not, not_lt]
    exact hb
  unfold wrap1 Scalar.select IntOp.cmpi
  simp only [hs]
  exact if_neg (by decide)

/-- A word whose signed value is node `i`'s number names node `i`. -/
theorem nodeIdx_of_toInt_eq (N : ℕ) (hN : 0 < N) (b : BitVec 32) (i : Fin N) (h : b.toInt = (i.val : ℤ)) :
    nodeIdx N hN b = i := by
  apply Fin.ext
  show min b.toInt.toNat (N - 1) = i.val
  rw [h, Int.toNat_natCast]
  have := i.isLt
  omega

/-- … and so does the word after wrapping. -/
theorem nodeIdx_wrap1_of_toInt_eq (N : ℕ) (hN : 0 < N) (n b : BitVec 32) (i : Fin N) (h : b.toInt = (i.val : ℤ)) :
    nodeIdx N hN (wrap1 n b) = i := by
  rw [wrap1_of_nonneg n b (by rw [h]; exact Int.natCast_nonneg _)]
  exact nodeIdx_of_toInt_eq N hN b i h

/-! ## A loop's word -/

/-- Node `j`'s number as a word reads back as `j`, the node count being at most 2^31. -/
theorem toInt_loop {N : ℕ} (hN31 : N ≤ 2 ^ 31) (j : Fin N) : (BitVec.ofNat 32 j.val).toInt = (j.val : ℤ) :=
  toInt_ofNat_lt (Nat.lt_of_lt_of_le j.isLt hN31)

/-- Wrapping leaves a loop's word as it is. -/
theorem wrap1_loop {N : ℕ} (hN31 : N ≤ 2 ^ 31) (n : BitVec 32) (j : Fin N) :
    wrap1 n (BitVec.ofNat 32 j.val) = BitVec.ofNat 32 j.val :=
  wrap1_of_nonneg n _ (by rw [toInt_loop hN31 j]; exact Int.natCast_nonneg _)

/-- Node `j`'s loop names node `j`. -/
theorem nodeIdx_wrap1_loop {N : ℕ} (hN : 0 < N) (hN31 : N ≤ 2 ^ 31) (n : BitVec 32) (j : Fin N) :
    nodeIdx N hN (wrap1 n (BitVec.ofNat 32 j.val)) = j :=
  nodeIdx_wrap1_of_toInt_eq N hN n _ j (toInt_loop hN31 j)

/-- Node `j`'s loop has node `i`'s number exactly when `j` is `i`. -/
theorem toInt_loop_eq_iff {N : ℕ} (hN31 : N ≤ 2 ^ 31) (i j : Fin N) :
    (BitVec.ofNat 32 j.val).toInt = (i.val : ℤ) ↔ j = i := by
  rw [toInt_loop hN31 j]
  constructor
  · intro h; exact Fin.ext (by exact_mod_cast h)
  · intro h; rw [h]

/-! ## The joined index vector -/

/-- The first E entries of the joined vector are the given edges'. -/
theorem joined_edge {N E E' : ℕ} (u : IVec (Vc E) 32) (hE' : E' = E + N)
    (h : Shape.Concatenates [Vc E, Vc N] (Vc E') 0) (e : Fin E) :
    concatenate (Vc E') 0 [⟨Vc E, u⟩, ⟨Vc N, iotaInDim (Vc N) 32 0⟩] h (ix1 ⟨e.val, by omega⟩) = u (ix1 e) :=
  ConcatPair.vec_left u (iotaInDim (Vc N) 32 0) h ⟨e.val, by omega⟩ e rfl

/-- The entry at position E + j is node `j`'s number. -/
theorem joined_loop {N E E' : ℕ} (u : IVec (Vc E) 32) (hE' : E' = E + N)
    (h : Shape.Concatenates [Vc E, Vc N] (Vc E') 0) (j : Fin N) :
    concatenate (Vc E') 0 [⟨Vc E, u⟩, ⟨Vc N, iotaInDim (Vc N) 32 0⟩] h (ix1 ⟨E + j.val, by omega⟩)
      = BitVec.ofNat 32 j.val :=
  (ConcatPair.vec_right u (iotaInDim (Vc N) 32 0) h ⟨E + j.val, by omega⟩ j (Nat.add_comm _ _)).trans rfl

/-! ## Sums over the edge list with loops -/

/-- A sum over the E' = E + N positions is the sum over the edges plus the sum over the loops. -/
theorem sum_edges_loops {M : Type*} [AddCommMonoid M] {N E E' : ℕ} (hE' : E' = E + N) (f : Fin E' → M) :
    ∑ k, f k = (∑ e : Fin E, f ⟨e.val, by omega⟩) + ∑ j : Fin N, f ⟨E + j.val, by omega⟩ := by
  subst hE'
  rw [Fin.sum_univ_add]
  rfl

end Cert.LoopEdges
-- ==== Proof.LibScaledMax.lean ====
/-
  Scaling a row maximum of inner products by a nonnegative factor, on the extended reals.

  For a factor `c` with `0 ≤ c` and `c ≠ ⊤`, multiplication by `c` distributes over every finite sum of extended
  reals (no finiteness of the summands is needed) and is monotone, so it commutes with a maximum taken over a
  nonempty finite index set, also when that maximum is folded from `⊥`.  Together:
      (max_j ∑_k a_k · b_{j,k}) · c = max_j ∑_k (a_k · c) · b_{j,k}.
-/
import Mathlib.Data.EReal.Basic
import Mathlib.Data.EReal.Operations
import Mathlib.Data.EReal.Inv
import Mathlib.Data.Finset.Fold
import Mathlib.Algebra.BigOperators.Group.Finset.Basic

noncomputable section

namespace Cert.LibScaledMax

open Finset

/-- A nonnegative factor other than `⊤` distributes over a finite sum of extended reals. -/
theorem sum_mul_of_nonneg {K : Type*} (s : Finset K) (t : K → EReal) {c : EReal} (hc : 0 ≤ c) (hc' : c ≠ ⊤) :
    (∑ k ∈ s, t k) * c = ∑ k ∈ s, t k * c := by
  classical
  induction s using Finset.induction_on with
  | empty => simp
  | insert a s ha ih =>
    rw [Finset.sum_insert ha, Finset.sum_insert ha, EReal.right_distrib_of_nonneg_of_ne_top hc hc', ih]

/-- Scaling the left factors of an inner product scales the inner product. -/
theorem inner_scaled {K : Type*} [Fintype K] (a b : K → EReal) {c : EReal} (hc : 0 ≤ c) (hc' : c ≠ ⊤) :
    ∑ k, (a k * c) * b k = (∑ k, a k * b k) * c := by
  rw [sum_mul_of_nonneg _ _ hc hc']
  exact Finset.sum_congr rfl fun k _ => mul_right_comm _ _ _

/-- A maximum folded from `b` is the maximum of `b` and the one folded from `⊥`: when some entry dominates `b`,
    the starting value does not matter. -/
theorem fold_max_start {J : Type*} (s : Finset J) (g : J → EReal) (b : EReal) (j₀ : J) (hj₀ : j₀ ∈ s) (hb : b ≤ g j₀) :
    s.fold max b g = s.fold max ⊥ g := by
  refine eq_of_forall_ge_iff fun d => ?_
  rw [Finset.fold_max_le, Finset.fold_max_le]
  exact ⟨fun h => ⟨bot_le, h.2⟩, fun h => ⟨hb.trans (h.2 j₀ hj₀), h.2⟩⟩

/-- Multiplication by a nonnegative factor commutes with a maximum over a nonempty finite index set folded from `⊥`. -/
theorem fold_max_mul {J : Type*} [Fintype J] [Nonempty J] (f : J → EReal) {c : EReal} (hc : 0 ≤ c) :
    (univ.fold max ⊥ f) * c = univ.fold max ⊥ fun j => f j * c := by
  have hmono : Monotone fun x : EReal => x * c := fun x y h => mul_le_mul_of_nonneg_right h hc
  have hm : ∀ x y : EReal, max x y * c = max (x * c) (y * c) := fun x y => hmono.map_max
  rw [← Finset.fold_hom (op := max) (op' := max) (m := fun x : EReal => x * c) hm]
  obtain ⟨j₀⟩ := ‹Nonempty J›
  exact fold_max_start _ _ _ j₀ (mem_univ _) (hmono bot_le)

/-- THE LAW: scaling a row maximum of inner products by `c` is the row maximum of the inner products of the scaled row. -/
theorem rowmax_scaled {J K : Type*} [Fintype J] [Nonempty J] [Fintype K] (a : K → EReal) (b : J → K → EReal)
    {c : EReal} (hc : 0 ≤ c) (hc' : c ≠ ⊤) :
    (univ.fold max ⊥ fun j => ∑ k, a k * b j k) * c = univ.fold max ⊥ fun j => ∑ k, (a k * c) * b j k := by
  rw [fold_max_mul _ hc]
  exact congrArg (fun f => univ.fold max ⊥ f) (funext fun j => (inner_scaled a (b j) hc hc').symm)

end Cert.LibScaledMax

end
-- ==== Proof.LibSymNorm.lean ====
/-
  Scaling the rows of a segment sum, on the extended reals.

  A factor c with 0 ≤ c < ⊤ distributes over a finite sum of extended reals, so scaling every summand a e * b e of a
  filtered sum by c afterwards is scaling it inside: c * (∑ over the selected e of a e * b e) = ∑ of a e * (b e * c).
  With a node's own row x entering by c * c on either side, the two arrangements of a symmetric-normalised aggregation
  agree. Nothing is assumed of a, b or x (they may be infinite): only the factor has to be nonnegative and not ⊤.
-/
import Mathlib.Data.EReal.Basic
import Mathlib.Data.EReal.Operations
import Mathlib.Algebra.BigOperators.Group.Finset.Basic
import Mathlib.Algebra.BigOperators.Fin
import proofs.«154712_j38147899523171_2_alg».proof.Proof.LibScaledMax

namespace Cert.SymNorm

open Finset

/-- Scaled before and after the sum over the selected edges, against scaled edge by edge: both sides of the
    aggregation at one node and one feature. -/
theorem scaled_rows_eq_scaled_edges {ι : Type*} [Fintype ι] (P : ι → Prop) [DecidablePred P] (a b : ι → EReal)
    {c : EReal} (hc : 0 ≤ c) (hc' : c ≠ ⊤) (x : EReal) :
    c * (0 + ∑ e, if P e then a e * b e else 0) + (c * c) * x
      = 0 + ((∑ e, if P e then a e * (b e * c) else 0) + x * (c * c)) := by
  rw [zero_add, zero_add, mul_comm c (∑ e, _), Cert.LibScaledMax.sum_mul_of_nonneg _ _ hc hc', mul_comm (c * c) x]
  congr 1
  refine Finset.sum_congr rfl fun e _ => ?_
  split_ifs
  · rw [mul_assoc]
  · rw [zero_mul]

/-- Counting the selected edges and then one more is counting them among edges and loops, exactly one loop selected. -/
theorem count_add_one {ι κ : Type*} [Fintype ι] [Fintype κ] [DecidableEq κ] (P : ι → Prop) [DecidablePred P]
    (i : κ) (one : EReal) :
    (0 + ∑ e, if P e then one else 0) + one
      = 0 + ((∑ e, if P e then one else 0) + ∑ j : κ, if j = i then one else 0) := by
  rw [Finset.sum_ite_eq' Finset.univ i (fun _ => one), if_pos (Finset.mem_univ i), add_assoc]

end Cert.SymNorm
-- ==== Proof.LibEdgeSums.lean ====
/-
  The two arrangements of the aggregation agree, as finite sums.

  Node i's row of the aggregation, at feature f, is a sum over the edges arriving at i. With the loops listed among the
  edges (E' = E + N positions: the E given edges, then node j's loop at position E + j) every position contributes its
  source's row scaled by the factors of its two ends. On a given edge arriving at i the destination's factor is node i's,
  a constant that comes out of the sum; the loops arriving at i are the single loop of node i, which contributes node i's
  own row scaled by the square of its factor. The factor being nonnegative and finite, it distributes over the sum of
  extended reals, whatever the rows hold. The degree count splits the same way: the given edges arriving at i, and one
  more for the loop.
-/
import proofs.«154712_j38147899523171_2_alg».proof.Proof.LibLoopEdges
import proofs.«154712_j38147899523171_2_alg».proof.Proof.LibSymNorm
import proofs.«154712_j38147899523171_2_alg».proof.Proof.LibGraphDefs

namespace Cert.EdgeSums

open Idealize.ShloMosaic Idealize.ShloMosaic.ValueIdx Cert.GraphStages Cert.LoopEdges
open scoped BigOperators

variable {N E E' C : ℕ} (hN : 0 < N) (hN31 : N ≤ 2 ^ 31) (hE' : E' = E + N)
  (hcat : Shape.Concatenates [Vc E, Vc N] (Vc E') 0) (n : BitVec 32) (src dst : IVec (Vc E) 32)
include hN31 hE'

/-- The aggregation at node `i` and feature `f`: summed over edges and loops with each position scaled by the factors
    of its two ends, it is node `i`'s factor times the sum over the given edges arriving at `i` of the source's row scaled
    by the source's factor, plus the square of node `i`'s factor times node `i`'s own row. -/
theorem agg_sums_eq (dinv : (Vc N).Idx → EReal) (hd0 : ∀ j, 0 ≤ dinv j) (hdT : ∀ j, dinv j ≠ ⊤)
    (h : (Mx N C).Idx → EReal) (i : Fin N) (f : Fin C) :
    (0 + ∑ k : Fin E',
        if (concatenate (Vc E') 0 [⟨Vc E, dst⟩, ⟨Vc N, iotaInDim (Vc N) 32 0⟩] hcat (ix1 k)).toInt = (i.val : ℤ) then
          h (ix2 (nodeIdx N hN (wrap1 n (concatenate (Vc E') 0 [⟨Vc E, src⟩, ⟨Vc N, iotaInDim (Vc N) 32 0⟩] hcat (ix1 k)))) f)
            * (dinv (ix1 (nodeIdx N hN (wrap1 n (concatenate (Vc E') 0 [⟨Vc E, src⟩, ⟨Vc N, iotaInDim (Vc N) 32 0⟩] hcat (ix1 k)))))
              * dinv (ix1 (nodeIdx N hN (wrap1 n (concatenate (Vc E') 0 [⟨Vc E, dst⟩, ⟨Vc N, iotaInDim (Vc N) 32 0⟩] hcat (ix1 k))))))
        else 0)
      = dinv (ix1 i)
          * (0 + ∑ e : Fin E,
              if (dst (ix1 e)).toInt = (i.val : ℤ) then
                h (ix2 (nodeIdx N hN (wrap1 n (src (ix1 e)))) f) * dinv (ix1 (nodeIdx N hN (wrap1 n (src (ix1 e)))))
              else 0)
        + (dinv (ix1 i) * dinv (ix1 i)) * h (ix2 i f) := by
  refine Eq.trans ?_ (Cert.SymNorm.scaled_rows_eq_scaled_edges (fun e : Fin E => (dst (ix1 e)).toInt = (i.val : ℤ))
    (fun e => h (ix2 (nodeIdx N hN (wrap1 n (src (ix1 e)))) f)) (fun e => dinv (ix1 (nodeIdx N hN (wrap1 n (src (ix1 e))))))
    (hd0 (ix1 i)) (hdT (ix1 i)) (h (ix2 i f))).symm
  rw [sum_edges_loops hE']
  congr 1
  congr 1
  · -- a given edge: the joined vectors read the given ones, and the destination's row is node i's
    refine Finset.sum_congr rfl fun e _ => ?_
    rw [joined_edge dst hE' hcat e, joined_edge src hE' hcat e]
    split_ifs with hc
    · rw [nodeIdx_wrap1_of_toInt_eq N hN n _ i hc]
    · rfl
  · -- the loops: both ends of node j's loop are j, and it arrives at i exactly when j is i
    refine (Finset.sum_congr rfl fun j _ => ?_).trans
      ((Finset.sum_ite_eq' Finset.univ i fun j => h (ix2 j f) * (dinv (ix1 j) * dinv (ix1 j))).trans
        (if_pos (Finset.mem_univ i)))
    rw [joined_loop dst hE' hcat j, joined_loop src hE' hcat j, nodeIdx_wrap1_loop hN hN31 n j]
    exact if_congr (toInt_loop_eq_iff hN31 i j) rfl rfl

/-- The degree count at node `i`: over edges and loops it is the count over the given edges arriving at `i`, and one
    more for node `i`'s loop. -/
theorem deg_sums_eq (i : Fin N) (one : EReal) :
    (0 + ∑ k : Fin E',
        if (concatenate (Vc E') 0 [⟨Vc E, dst⟩, ⟨Vc N, iotaInDim (Vc N) 32 0⟩] hcat (ix1 k)).toInt = (i.val : ℤ) then one else 0)
      = (0 + ∑ e : Fin E, if (dst (ix1 e)).toInt = (i.val : ℤ) then one else 0) + one := by
  refine Eq.trans ?_ (Cert.SymNorm.count_add_one (fun e : Fin E => (dst (ix1 e)).toInt = (i.val : ℤ)) i one).symm
  rw [sum_edges_loops hE']
  congr 1
  congr 1
  · refine Finset.sum_congr rfl fun e _ => ?_
    rw [joined_edge dst hE' hcat e]
  · refine Finset.sum_congr rfl fun j _ => ?_
    rw [joined_loop dst hE' hcat j]
    exact if_congr (toInt_loop_eq_iff hN31 i j) rfl rfl

end Cert.EdgeSums
-- ==== Proof.LibGraphBridge.lean ====
/-
  The two arrangements of the graph aggregation agree as whole arrays.

  Listing one loop per node after the given edges and scaling each listed edge's source row by the product of the factors
  of its two ends gives, at every node and feature, the same extended real as scaling rows by their node's factor,
  summing over the given edges arriving at the node, scaling by the destination's factor and adding the node's own row
  times the square of its factor — provided every factor is nonnegative and not ⊤, so that it distributes over the sum.
  Likewise the degrees counted over edges and loops are the degrees counted over edges plus one.
-/
import proofs.«154712_j38147899523171_2_alg».proof.Proof.LibGraphDefs
import proofs.«154712_j38147899523171_2_alg».proof.Proof.LibGraphReads
import proofs.«154712_j38147899523171_2_alg».proof.Proof.LibEdgeSums

noncomputable section

namespace Cert.GraphStages

open Idealize.ShloMosaic Idealize.ShloMosaic.ValueIdx Cert.SegmentDims

variable {N E E' C : ℕ}

/-- Degrees over edges followed by loops are degrees over edges, one added for the loop. -/
theorem degLoopsListed_joined (hN31 : N ≤ 2 ^ 31) (hE' : E' = E + N)
    (hcat : Shape.Concatenates [Vc E, Vc N] (Vc E') 0)
    (hzN : S0.BroadcastsInDim (Vc N) ![]) (hzE : S0.BroadcastsInDim (Vc E) ![])
    (hE1 : (Vc E).BroadcastsInDim (Mx E 1) ![0]) (swf : ScatterDims.WF (Vc N) (Mx E 1) (Vc E) [] [0] [0] 1)
    (hzN' : S0.BroadcastsInDim (Vc N) ![]) (hzE' : S0.BroadcastsInDim (Vc E') ![])
    (hE'1 : (Vc E').BroadcastsInDim (Mx E' 1) ![0]) (swf' : ScatterDims.WF (Vc N) (Mx E' 1) (Vc E') [] [0] [0] 1)
    (dst : IVec (Vc E) 32) :
    degLoopsListed hzN' hzE' hE'1 swf'
        (concatenate (Vc E') 0 [⟨Vc E, dst⟩, ⟨Vc N, iotaInDim (Vc N) 32 0⟩] hcat)
      = degLoopsAdded hzN hzE hE1 swf dst := by
  funext j
  obtain ⟨i, rfl⟩ : ∃ i : Fin N, j = ix1 i := ⟨j 0, eq_ix1 j⟩
  rw [degLoopsListed_apply, degLoopsAdded_apply]
  exact Cert.EdgeSums.deg_sums_eq hN31 hE' hcat dst i _

/-- The aggregation over edges followed by loops, each listed edge scaled by the product of its ends' factors, is the
    aggregation with rows scaled before and after the sum over the given edges and the node's own row added. -/
theorem aggScaledEdges_joined (hN : 0 < N) (hN31 : N ≤ 2 ^ 31) (hE' : E' = E + N)
    (hcat : Shape.Concatenates [Vc E, Vc N] (Vc E') 0) (n : BitVec 32)
    (hzE : S0.BroadcastsInDim (Vc E) ![]) (hE1 : (Vc E).BroadcastsInDim (Mx E 1) ![0])
    (hN1 : (Vc N).BroadcastsInDim (Mx N 1) ![0]) (hNC : (Mx N 1).BroadcastsInDim (Mx N C) ![0, 1])
    (hzNC : S0.BroadcastsInDim (Mx N C) ![])
    (gwf : GatherDims.WF (Mx N C) (Mx E 1) (Mx E C) [1] [0] [] [0] [] 1 ![1, C])
    (swf : ScatterDims.WF (Mx N C) (Mx E 1) (Mx E C) [1] [0] [0] 1)
    (hzE' : S0.BroadcastsInDim (Vc E') ![]) (hE'1 : (Vc E').BroadcastsInDim (Mx E' 1) ![0])
    (hE'C : (Mx E' 1).BroadcastsInDim (Mx E' C) ![0, 1]) (hzNC' : S0.BroadcastsInDim (Mx N C) ![])
    (gvwf' : GatherDims.WF (Vc N) (Mx E' 1) (Vc E') [] [0] [] [0] [] 1 ![1])
    (gwf' : GatherDims.WF (Mx N C) (Mx E' 1) (Mx E' C) [1] [0] [] [0] [] 1 ![1, C])
    (swf' : ScatterDims.WF (Mx N C) (Mx E' 1) (Mx E' C) [1] [0] [0] 1)
    (dinv : FVec Ideal (Vc N) .f32) (hd0 : ∀ j, 0 ≤ dinv j) (hdT : ∀ j, dinv j ≠ ⊤)
    (src dst : IVec (Vc E) 32) (h : FVec Ideal (Mx N C) .f32) :
    aggScaledEdges n hzE' hE'1 hE'C hzNC' gvwf' gwf' swf' dinv
        (concatenate (Vc E') 0 [⟨Vc E, src⟩, ⟨Vc N, iotaInDim (Vc N) 32 0⟩] hcat)
        (concatenate (Vc E') 0 [⟨Vc E, dst⟩, ⟨Vc N, iotaInDim (Vc N) 32 0⟩] hcat) h
      = aggScaledRows n hzE hE1 hN1 hNC hzNC gwf swf dinv src dst h := by
  funext j
  obtain ⟨i, f, rfl⟩ : ∃ (i : Fin N) (f : Fin C), j = ix2 i f := ⟨j 0, j 1, eq_ix2 j⟩
  rw [aggScaledEdges_apply hN, aggScaledRows_apply hN]
  exact Cert.EdgeSums.agg_sums_eq hN hN31 hE' hcat n src dst dinv hd0 hdT h i f

/-- The factors computed from any degrees are nonnegative and never ⊤. -/
theorem dinvOf_nonneg (hzN : S0.BroadcastsInDim (Vc N) ![]) (deg : FVec Ideal (Vc N) .f32) (j : (Vc N).Idx) :
    0 ≤ dinvOf hzN deg j := by
  obtain ⟨i, rfl⟩ : ∃ i : Fin N, j = ix1 i := ⟨j 0, eq_ix1 j⟩
  rw [dinvOf_apply]; exact dinv1_nonneg _

theorem dinvOf_ne_top (hzN : S0.BroadcastsInDim (Vc N) ![]) (deg : FVec Ideal (Vc N) .f32) (j : (Vc N).Idx) :
    dinvOf hzN deg j ≠ ⊤ := by
  obtain ⟨i, rfl⟩ : ∃ i : Fin N, j = ix1 i := ⟨j 0, eq_ix1 j⟩
  rw [dinvOf_apply]; exact dinv1_ne_top _

end Cert.GraphStages

end
-- ==== Proof.LibSelfLoopTerm.lean ====
/-
  The loops of a symmetric-normalised graph aggregation taken out of the edge list.

  List one loop per node after the E given edges (E' = E + N positions) and scale each listed edge's source row by the
  product of the factors of its two ends. At node i and feature f the sum over the listed edges arriving at i splits into
  the given edges arriving at i, which contribute what they contribute without the loops, and the loops arriving at i:
  that is the single loop of node i, both of whose ends are i, so it contributes node i's own row times the square of
  node i's factor. Hence the aggregation over edges and loops is the aggregation over the given edges plus the rows
  scaled by the squared factors. Only the commutative-monoid laws of + and the commutativity of * on the extended
  reals are used: nothing is assumed of the rows or of the factors, which may be infinite.
-/
import proofs.«154712_j38147899523171_2_alg».proof.Proof.LibGraphDefs
import proofs.«154712_j38147899523171_2_alg».proof.Proof.LibGraphReads
import proofs.«154712_j38147899523171_2_alg».proof.Proof.LibLoopEdges

noncomputable section

open scoped BigOperators

namespace Cert.GraphStages

open Idealize.ShloMosaic Idealize.ShloMosaic.ValueIdx Cert.SegmentDims Cert.LoopEdges Cert.LibInDimLayout

variable {N E E' C : ℕ}

/-- The aggregation over the given edges, each edge's row scaled by the product of the factors of its two ends, with
    every node's own row added, scaled by the square of the node's factor. -/
def aggEdgesSelfAdded (n : BitVec 32) (hzE : S0.BroadcastsInDim (Vc E) ![]) (hE1 : (Vc E).BroadcastsInDim (Mx E 1) ![0])
    (hEC : (Mx E 1).BroadcastsInDim (Mx E C) ![0, 1]) (hzNC : S0.BroadcastsInDim (Mx N C) ![])
    (hN1 : (Vc N).BroadcastsInDim (Mx N 1) ![0]) (hNC : (Mx N 1).BroadcastsInDim (Mx N C) ![0, 1])
    (gvwf : GatherDims.WF (Vc N) (Mx E 1) (Vc E) [] [0] [] [0] [] 1 ![1])
    (gwf : GatherDims.WF (Mx N C) (Mx E 1) (Mx E C) [1] [0] [] [0] [] 1 ![1, C])
    (swf : ScatterDims.WF (Mx N C) (Mx E 1) (Mx E C) [1] [0] [0] 1)
    (dinv : FVec Ideal (Vc N) .f32) (src dst : IVec (Vc E) 32) (h : FVec Ideal (Mx N C) .f32) :
    FVec Ideal (Mx N C) .f32 :=
  addf (aggScaledEdges n hzE hE1 hEC hzNC gvwf gwf swf dinv src dst h)
    (mulf (broadcastInDim (Mx N C) ![0, 1] hNC (broadcastInDim (Mx N 1) ![0] hN1 (mulf dinv dinv))) h)

/-- At node `i` and feature `f`: the sum over edges and loops, each position scaled by the factors of its two ends, is
    the same sum over the given edges plus the square of node `i`'s factor times node `i`'s own entry. -/
theorem edges_loops_sum_eq (hN : 0 < N) (hN31 : N ≤ 2 ^ 31) (hE' : E' = E + N)
    (hcat : Shape.Concatenates [Vc E, Vc N] (Vc E') 0) (n : BitVec 32) (src dst : IVec (Vc E) 32)
    (dinv : (Vc N).Idx → EReal) (h : (Mx N C).Idx → EReal) (i : Fin N) (f : Fin C) :
    (0 + ∑ k : Fin E',
        if (concatenate (Vc E') 0 [⟨Vc E, dst⟩, ⟨Vc N, iotaInDim (Vc N) 32 0⟩] hcat (ix1 k)).toInt = (i.val : ℤ) then
          h (ix2 (nodeIdx N hN (wrap1 n (concatenate (Vc E') 0 [⟨Vc E, src⟩, ⟨Vc N, iotaInDim (Vc N) 32 0⟩] hcat (ix1 k)))) f)
            * (dinv (ix1 (nodeIdx N hN (wrap1 n (concatenate (Vc E') 0 [⟨Vc E, src⟩, ⟨Vc N, iotaInDim (Vc N) 32 0⟩] hcat (ix1 k)))))
              * dinv (ix1 (nodeIdx N hN (wrap1 n (concatenate (Vc E') 0 [⟨Vc E, dst⟩, ⟨Vc N, iotaInDim (Vc N) 32 0⟩] hcat (ix1 k))))))
        else 0)
      = (0 + ∑ e : Fin E,
          if (dst (ix1 e)).toInt = (i.val : ℤ) then
            h (ix2 (nodeIdx N hN (wrap1 n (src (ix1 e)))) f)
              * (dinv (ix1 (nodeIdx N hN (wrap1 n (src (ix1 e))))) * dinv (ix1 (nodeIdx N hN (wrap1 n (dst (ix1 e))))))
          else 0)
        + (dinv (ix1 i) * dinv (ix1 i)) * h (ix2 i f) := by
  rw [sum_edges_loops hE', zero_add, zero_add]
  congr 1
  · -- a given edge: the joined vectors read the given ones
    refine Finset.sum_congr rfl fun e _ => ?_
    rw [joined_edge dst hE' hcat e, joined_edge src hE' hcat e]
  · -- the loops: both ends of node j's loop are j, and it arrives at i exactly when j is i
    refine (Finset.sum_congr rfl fun j _ => ?_).trans
      ((Finset.sum_ite_eq' Finset.univ i fun j => h (ix2 j f) * (dinv (ix1 j) * dinv (ix1 j))).trans
        ((if_pos (Finset.mem_univ i)).trans (mul_comm _ _)))
    rw [joined_loop dst hE' hcat j, joined_loop src hE' hcat j, nodeIdx_wrap1_loop hN hN31 n j]
    exact if_congr (toInt_loop_eq_iff hN31 i j) rfl rfl

/-- The aggregation over edges followed by loops, each listed edge scaled by the product of its ends' factors, is the
    aggregation over the given edges with every node's own row added, scaled by the square of its factor. -/
theorem aggScaledEdges_joined_selfAdded (hN : 0 < N) (hN31 : N ≤ 2 ^ 31) (hE' : E' = E + N)
    (hcat : Shape.Concatenates [Vc E, Vc N] (Vc E') 0) (n : BitVec 32)
    (hzE : S0.BroadcastsInDim (Vc E) ![]) (hE1 : (Vc E).BroadcastsInDim (Mx E 1) ![0])
    (hEC : (Mx E 1).BroadcastsInDim (Mx E C) ![0, 1]) (hzNC : S0.BroadcastsInDim (Mx N C) ![])
    (hN1 : (Vc N).BroadcastsInDim (Mx N 1) ![0]) (hNC : (Mx N 1).BroadcastsInDim (Mx N C) ![0, 1])
    (gvwf : GatherDims.WF (Vc N) (Mx E 1) (Vc E) [] [0] [] [0] [] 1 ![1])
    (gwf : GatherDims.WF (Mx N C) (Mx E 1) (Mx E C) [1] [0] [] [0] [] 1 ![1, C])
    (swf : ScatterDims.WF (Mx N C) (Mx E 1) (Mx E C) [1] [0] [0] 1)
    (hzE' : S0.BroadcastsInDim (Vc E') ![]) (hE'1 : (Vc E').BroadcastsInDim (Mx E' 1) ![0])
    (hE'C : (Mx E' 1).BroadcastsInDim (Mx E' C) ![0, 1]) (hzNC' : S0.BroadcastsInDim (Mx N C) ![])
    (gvwf' : GatherDims.WF (Vc N) (Mx E' 1) (Vc E') [] [0] [] [0] [] 1 ![1])
    (gwf' : GatherDims.WF (Mx N C) (Mx E' 1) (Mx E' C) [1] [0] [] [0] [] 1 ![1, C])
    (swf' : ScatterDims.WF (Mx N C) (Mx E' 1) (Mx E' C) [1] [0] [0] 1)
    (dinv : FVec Ideal (Vc N) .f32) (src dst : IVec (Vc E) 32) (h : FVec Ideal (Mx N C) .f32) :
    aggScaledEdges n hzE' hE'1 hE'C hzNC' gvwf' gwf' swf' dinv
        (concatenate (Vc E') 0 [⟨Vc E, src⟩, ⟨Vc N, iotaInDim (Vc N) 32 0⟩] hcat)
        (concatenate (Vc E') 0 [⟨Vc E, dst⟩, ⟨Vc N, iotaInDim (Vc N) 32 0⟩] hcat) h
      = aggEdgesSelfAdded n hzE hE1 hEC hzNC hN1 hNC gvwf gwf swf dinv src dst h := by
  funext j
  obtain ⟨i, f, rfl⟩ : ∃ (i : Fin N) (f : Fin C), j = ix2 i f := ⟨j 0, j 1, eq_ix2 j⟩
  rw [aggScaledEdges_apply hN]
  unfold aggEdgesSelfAdded
  rw [addf_apply, aggScaledEdges_apply hN, mulf_apply, spreadColumn_apply, column_apply, mulf_apply]
  exact edges_loops_sum_eq hN hN31 hE' hcat n src dst dinv h i f

end Cert.GraphStages

end
-- ==== Proof.LibColumnGather.lean ====
/-
  The host's column gather read at an index, for any extents and any index width.

  A gather of columns of a [C, N] table at an [E, 1] array of start indices into a [C, E] array reads, at (f, e), entry
  f of the column whose number is the start index at e taken signed and clamped into [0, N - 1]: the first axis is carried
  over whole, the second is indexed and collapsed.
-/
import Idealize.ShloMosaic.PureOps.Ideal
import Idealize.ShloMosaic.PureOps.Dims
import Idealize.ShloMosaic.Lib.ValueIdx
import Idealize.ShloMosaic.Lib.Pipeline.Value

noncomputable section

namespace Cert.LibColumnGather

open Idealize.ShloMosaic Idealize.ShloMosaic.ValueIdx

/-- Columns of a [C, N] array gathered at [E, 1] indices into [C, E]: axis 0 is the column's extent, axis 1 is indexed
    and collapsed. -/
abbrev colGatherDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

variable {α : Type} {C N E w : Nat}

/-- THE COLUMN GATHER READ AT `(f, e)`: row `f` of the column whose number is the start index `idx[e, 0]`, read signed
    and clamped into `[0, N - 1]`. -/
theorem gather_cols_apply (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (f : Fin C) (e : Fin E) :
    Host.gather (colGatherDims C N E wf) x idx (ix2 f e) =
      x (ix2 f (⟨min (idx (ix2 e (0 : Fin 1))).toInt.toNat (N - 1), by omega⟩ : Fin N)) := by
  unfold Host.gather
  congr 1
  funext a
  refine Fin.ext ?_
  match a with
  | ⟨0, _⟩ =>
    show (colGatherDims C N E wf).start (ix2 f e) idx 0 + (colGatherDims C N E wf).batchCoord (ix2 f e) 0 +
      (colGatherDims C N E wf).offCoord (ix2 f e) 0 = f.val
    rw [GatherDims.batchCoord_eq_zero _ _ _ List.not_mem_nil]
    have hs : (colGatherDims C N E wf).start (ix2 f e) idx 0 = 0 := by
      unfold GatherDims.start
      have hk : (0 : Fin 2) ∉ (colGatherDims C N E wf).startIndexMap :=
        (by decide : (0 : Fin 2) ∉ ([1] : List (Fin 2)))
      rw [dif_neg hk]
    have ho : (colGatherDims C N E wf).offCoord (ix2 f e) 0 = f.val := by
      unfold GatherDims.offCoord
      have hk : (0 : Fin 2) ∈ (colGatherDims C N E wf).sKept :=
        (by decide : (0 : Fin 2) ∈ (List.finRange 2).filter (· ∉ (([1] : List (Fin 2)) ++ [])))
      rw [dif_pos hk]
      rfl
    rw [hs, ho]
    simp only [Nat.zero_add]
  | ⟨1, _⟩ =>
    show (colGatherDims C N E wf).start (ix2 f e) idx 1 + (colGatherDims C N E wf).batchCoord (ix2 f e) 1 +
      (colGatherDims C N E wf).offCoord (ix2 f e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGatherDims C N E wf).startIndexMap from List.mem_singleton.mpr rfl)]
    have hsi : (colGatherDims C N E wf).siIdx (ix2 f e) ⟨List.idxOf (1 : Fin 2) (colGatherDims C N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.LibColumnGather

end
-- ==== Proof.Stages.lean ====
/-
  A two-layer symmetric-normalised graph convolution followed by edge scoring, as whole-array functions of the inputs.

  N nodes with one input feature, E directed edges given as two vectors of 32-bit words (sources and destinations), four
  hidden features. A layer multiplies the node rows by a weight matrix, aggregates over the graph with every node's own
  loop added, and adds a bias row; between the two layers negative entries are replaced by zero. An edge's score is the
  inner product of the final rows of its two ends.

  The network is written twice. With the LOOPS LISTED the edge list is the given edges followed by one loop per node: the
  degree of a node counts the listed edges arriving at it, and the aggregation sums, over the listed edges arriving at a
  node, the source's row scaled by the factors of the edge's two ends. With the SELF TERM ADDED only the given edges are
  listed: the degree is the count over the given edges plus one, and the aggregation over the given edges has every
  node's own row added, scaled by the square of the node's factor. The two agree as whole arrays, by the split of a sum
  over edges-then-loops into its two parts; nothing is assumed of the inputs.

  The score is written twice as well: over rows, a sum along the feature axis of the product of the two gathered [E, 4]
  arrays; and over columns, the embedding transposed to [4, N], gathered along its second axis at both ends, multiplied,
  and summed over its first axis into a [1, E] row that is then flattened. Entry by entry both are the same four-term
  sum.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«154712_j38147899523171_2_alg».proof.Proof.LibGraphDefs
import proofs.«154712_j38147899523171_2_alg».proof.Proof.LibGraphReads
import proofs.«154712_j38147899523171_2_alg».proof.Proof.LibGraphBridge
import proofs.«154712_j38147899523171_2_alg».proof.Proof.LibSelfLoopTerm
import proofs.«154712_j38147899523171_2_alg».proof.Proof.LibColumnGather

noncomputable section

open scoped BigOperators

namespace Cert.EdgeScore

open Idealize.ShloMosaic Idealize.ShloMosaic.ValueIdx Cert.GraphStages Cert.SegmentDims Cert.LibColumnGather
  Cert.LibIndexedRows

variable {N E E' : ℕ}

/-! ## The shape conditions the host operations take -/

/-- The conditions on N nodes with four features. -/
structure NodeConds (N : ℕ) : Prop where
  zN : S0.BroadcastsInDim (Vc N) ![]
  N1 : (Vc N).BroadcastsInDim (Mx N 1) ![0]
  NC : (Mx N 1).BroadcastsInDim (Mx N 4) ![0, 1]
  zNC : S0.BroadcastsInDim (Mx N 4) ![]
  bRow : (Vc 4).BroadcastsInDim (Mx 1 4) ![1]
  bAll : (Mx 1 4).BroadcastsInDim (Mx N 4) ![0, 1]

/-- The conditions on a list of E edges over N nodes with four features. -/
structure EdgeConds (N E : ℕ) : Prop where
  zE : S0.BroadcastsInDim (Vc E) ![]
  E1 : (Vc E).BroadcastsInDim (Mx E 1) ![0]
  EC : (Mx E 1).BroadcastsInDim (Mx E 4) ![0, 1]
  gv : GatherDims.WF (Vc N) (Mx E 1) (Vc E) [] [0] [] [0] [] 1 ![1]
  gr : GatherDims.WF (Mx N 4) (Mx E 1) (Mx E 4) [1] [0] [] [0] [] 1 ![1, 4]
  sr : ScatterDims.WF (Mx N 4) (Mx E 1) (Mx E 4) [1] [0] [0] 1
  sv : ScatterDims.WF (Vc N) (Mx E 1) (Vc E) [] [0] [0] 1

/-! ## The layers -/

/-- A bias row added to every row. -/
def addBias (cn : NodeConds N) (a : FVec Ideal (Mx N 4) .f32) (b : FVec Ideal (Vc 4) .f32) : FVec Ideal (Mx N 4) .f32 :=
  addf a (broadcastInDim (Mx N 4) ![0, 1] cn.bAll (broadcastInDim (Mx 1 4) ![1] cn.bRow b))

/-- Negative entries replaced by zero. -/
def rectify (cn : NodeConds N) (a : FVec Ideal (Mx N 4) .f32) : FVec Ideal (Mx N 4) .f32 :=
  maximumf a (broadcastInDim (Mx N 4) ![] cn.zNC (constant (F := Ideal) S0 .f32 0x00000000#32))

/-- The factors when the loops are listed among the edges. -/
def dinvListed (cn : NodeConds N) (ce : EdgeConds N E) (d : IVec (Vc E) 32) : FVec Ideal (Vc N) .f32 :=
  dinvOf cn.zN (degLoopsListed cn.zN ce.zE ce.E1 ce.sv d)

/-- The factors when the loop is counted by adding one. -/
def dinvAdded (cn : NodeConds N) (ce : EdgeConds N E) (dst : IVec (Vc E) 32) : FVec Ideal (Vc N) .f32 :=
  dinvOf cn.zN (degLoopsAdded cn.zN ce.zE ce.E1 ce.sv dst)

/-- One layer over a list of edges that contains the loops: aggregate, add the bias. -/
def layerListed (n : BitVec 32) (cn : NodeConds N) (ce : EdgeConds N E) (dinv : FVec Ideal (Vc N) .f32)
    (s d : IVec (Vc E) 32) (h : FVec Ideal (Mx N 4) .f32) (b : FVec Ideal (Vc 4) .f32) : FVec Ideal (Mx N 4) .f32 :=
  addBias cn (aggScaledEdges n ce.zE ce.E1 ce.EC cn.zNC ce.gv ce.gr ce.sr dinv s d h) b

/-- One layer over the given edges with every node's own row added: aggregate, add the self term, add the bias. -/
def layerSelf (n : BitVec 32) (cn : NodeConds N) (ce : EdgeConds N E) (dinv : FVec Ideal (Vc N) .f32)
    (src dst : IVec (Vc E) 32) (h : FVec Ideal (Mx N 4) .f32) (b : FVec Ideal (Vc 4) .f32) : FVec Ideal (Mx N 4) .f32 :=
  addBias cn (aggEdgesSelfAdded n ce.zE ce.E1 ce.EC cn.zNC cn.N1 cn.NC ce.gv ce.gr ce.sr dinv src dst h) b

/-- The two-layer embedding, loops listed among the edges. -/
def embedListed (n : BitVec 32) (cn : NodeConds N) (ce : EdgeConds N E)
    (d1 : DotDims (Mx N 1) (Mx 1 4) (Mx N 4)) (d2 : DotDims (Mx N 4) (Mx 4 4) (Mx N 4)) (s d : IVec (Vc E) 32)
    (x : FVec Ideal (Mx N 1) .f32) (W1 : FVec Ideal (Mx 1 4) .f32) (b1 : FVec Ideal (Vc 4) .f32)
    (W2 : FVec Ideal (Mx 4 4) .f32) (b2 : FVec Ideal (Vc 4) .f32) : FVec Ideal (Mx N 4) .f32 :=
  layerListed n cn ce (dinvListed cn ce d) s d
    (Host.dotGeneral d2 none
      (rectify cn (layerListed n cn ce (dinvListed cn ce d) s d (Host.dotGeneral d1 none x W1) b1)) W2) b2

/-- The two-layer embedding over the given edges, the self term added. -/
def embedSelf (n : BitVec 32) (cn : NodeConds N) (ce : EdgeConds N E)
    (d1 : DotDims (Mx N 1) (Mx 1 4) (Mx N 4)) (d2 : DotDims (Mx N 4) (Mx 4 4) (Mx N 4)) (src dst : IVec (Vc E) 32)
    (x : FVec Ideal (Mx N 1) .f32) (W1 : FVec Ideal (Mx 1 4) .f32) (b1 : FVec Ideal (Vc 4) .f32)
    (W2 : FVec Ideal (Mx 4 4) .f32) (b2 : FVec Ideal (Vc 4) .f32) : FVec Ideal (Mx N 4) .f32 :=
  layerSelf n cn ce (dinvAdded cn ce dst) src dst
    (Host.dotGeneral d2 none
      (rectify cn (layerSelf n cn ce (dinvAdded cn ce dst) src dst (Host.dotGeneral d1 none x W1) b1)) W2) b2

/-- THE TWO EMBEDDINGS AGREE: listing one loop per node after the given edges is adding the self term. -/
theorem embedListed_joined (hN : 0 < N) (hN31 : N ≤ 2 ^ 31) (hE' : E' = E + N)
    (hcat : Shape.Concatenates [Vc E, Vc N] (Vc E') 0) (n : BitVec 32) (cn : NodeConds N) (ce : EdgeConds N E)
    (ce' : EdgeConds N E') (d1 : DotDims (Mx N 1) (Mx 1 4) (Mx N 4)) (d2 : DotDims (Mx N 4) (Mx 4 4) (Mx N 4))
    (src dst : IVec (Vc E) 32) (x : FVec Ideal (Mx N 1) .f32) (W1 : FVec Ideal (Mx 1 4) .f32)
    (b1 : FVec Ideal (Vc 4) .f32) (W2 : FVec Ideal (Mx 4 4) .f32) (b2 : FVec Ideal (Vc 4) .f32) :
    embedListed n cn ce' d1 d2
        (concatenate (Vc E') 0 [⟨Vc E, src⟩, ⟨Vc N, iotaInDim (Vc N) 32 0⟩] hcat)
        (concatenate (Vc E') 0 [⟨Vc E, dst⟩, ⟨Vc N, iotaInDim (Vc N) 32 0⟩] hcat) x W1 b1 W2 b2
      = embedSelf n cn ce d1 d2 src dst x W1 b1 W2 b2 := by
  have hdinv : dinvListed cn ce' (concatenate (Vc E') 0 [⟨Vc E, dst⟩, ⟨Vc N, iotaInDim (Vc N) 32 0⟩] hcat)
      = dinvAdded cn ce dst := by
    unfold dinvListed dinvAdded
    rw [degLoopsListed_joined hN31 hE' hcat cn.zN ce.zE ce.E1 ce.sv cn.zN ce'.zE ce'.E1 ce'.sv dst]
  have hlayer : ∀ (dinv : FVec Ideal (Vc N) .f32) (h : FVec Ideal (Mx N 4) .f32) (b : FVec Ideal (Vc 4) .f32),
      layerListed n cn ce' dinv
          (concatenate (Vc E') 0 [⟨Vc E, src⟩, ⟨Vc N, iotaInDim (Vc N) 32 0⟩] hcat)
          (concatenate (Vc E') 0 [⟨Vc E, dst⟩, ⟨Vc N, iotaInDim (Vc N) 32 0⟩] hcat) h b
        = layerSelf n cn ce dinv src dst h b := by
    intro dinv h b
    unfold layerListed layerSelf
    rw [aggScaledEdges_joined_selfAdded hN hN31 hE' hcat n ce.zE ce.E1 ce.EC cn.zNC cn.N1 cn.NC ce.gv ce.gr ce.sr]
  unfold embedListed embedSelf
  rw [hdinv, hlayer, hlayer]

/-! ## The scores -/

/-- Columns gathered at a wrapped index column: entry (d, e) is entry d of the column the wrapped word at e names. -/
theorem gatherColsWrapped_apply {α : Type} (hN : 0 < N) (n : BitVec 32) (zE : S0.BroadcastsInDim (Vc E) ![])
    (E1 : (Vc E).BroadcastsInDim (Mx E 1) ![0])
    (gc : GatherDims.WF (Mx 4 N) (Mx E 1) (Mx 4 E) [0] [1] [] [1] [] 1 ![4, 1])
    (x : (Mx 4 N).Idx → α) (src : IVec (Vc E) 32) (d : Fin 4) (e : Fin E) :
    Host.gather (colGatherDims 4 N E gc) x (broadcastInDim (Mx E 1) ![0] E1 (wrapNeg n zE src)) (ix2 d e) =
      x (ix2 d (nodeIdx N hN (wrap1 n (src (ix1 e))))) := by
  rw [gather_cols_apply hN]
  refine congrArg (fun r => x (ix2 d r)) (Fin.ext ?_)
  show min _ (N - 1) = min _ (N - 1)
  rw [wrappedColumn_apply]

/-- The score over rows: the final rows of the two ends of every edge, multiplied entry by entry and summed along the
    feature axis. -/
def scoreRows (n : BitVec 32) (zE : S0.BroadcastsInDim (Vc E) ![]) (E1 : (Vc E).BroadcastsInDim (Mx E 1) ![0])
    (gr : GatherDims.WF (Mx N 4) (Mx E 1) (Mx E 4) [1] [0] [] [0] [] 1 ![1, 4])
    (hred : (Mx E 4).ReducesTo [1] (Vc E)) (h0 : 0 < S0.numel)
    (src dst : IVec (Vc E) 32) (h : FVec Ideal (Mx N 4) .f32) : FVec Ideal (Vc E) .f32 :=
  Host.reduceAdd (F := Ideal)
    (mulf (Host.gather (rowGatherDims N E 4 gr) h (broadcastInDim (Mx E 1) ![0] E1 (wrapNeg n zE src)))
      (Host.gather (rowGatherDims N E 4 gr) h (broadcastInDim (Mx E 1) ![0] E1 (wrapNeg n zE dst))))
    (constant (F := Ideal) S0 .f32 0x00000000#32) hred h0

/-- The products over columns: the embedding transposed, its columns gathered at both ends of every edge and
    multiplied entry by entry, a [4, E] array. -/
def prodCols (n : BitVec 32) (zE : S0.BroadcastsInDim (Vc E) ![]) (E1 : (Vc E).BroadcastsInDim (Mx E 1) ![0])
    (htr : (Mx N 4).Transposes [1, 0] (Mx 4 N))
    (gc : GatherDims.WF (Mx 4 N) (Mx E 1) (Mx 4 E) [0] [1] [] [1] [] 1 ![4, 1])
    (src dst : IVec (Vc E) 32) (h : FVec Ideal (Mx N 4) .f32) : FVec Ideal (Mx 4 E) .f32 :=
  mulf
    (Host.gather (colGatherDims 4 N E gc) (transpose (Mx 4 N) [1, 0] h htr)
      (broadcastInDim (Mx E 1) ![0] E1 (wrapNeg n zE src)))
    (Host.gather (colGatherDims 4 N E gc) (transpose (Mx 4 N) [1, 0] h htr)
      (broadcastInDim (Mx E 1) ![0] E1 (wrapNeg n zE dst)))

/-- A [4, E] array summed over its first axis, kept as a [1, E] row. -/
def colSums (p : (Mx 4 E).Idx → EReal) : (Mx 1 E).Idx → EReal :=
  fun i => ∑ d : Fin 4, p (ix2 d ⟨(i 1).val, idx2_lt1 i⟩)

theorem colSums_apply (p : (Mx 4 E).Idx → EReal) (u : Fin 1) (e : Fin E) :
    colSums p (ix2 u e) = ∑ d : Fin 4, p (ix2 d e) := rfl

/-- One row of the [2, E] edge array as a vector of E words. -/
def edgeRow (off : Fin 2 → ℕ) (hsl : (Mx 2 E).Slices off (Mx 1 E)) (hsc : (Mx 1 E).ShapeCasts (Vc E))
    (ei : IVec (Mx 2 E) 32) : IVec (Vc E) 32 :=
  shapeCast (Vc E) (extractStridedSlice (Mx 1 E) off ei hsl) hsc

/-- The products over columns at (d, e): entry d of the final row of the edge's source times entry d of the final row of
    its destination. -/
theorem prodCols_apply (hN : 0 < N) (n : BitVec 32) (zE : S0.BroadcastsInDim (Vc E) ![])
    (E1 : (Vc E).BroadcastsInDim (Mx E 1) ![0]) (htr : (Mx N 4).Transposes [1, 0] (Mx 4 N))
    (gc : GatherDims.WF (Mx 4 N) (Mx E 1) (Mx 4 E) [0] [1] [] [1] [] 1 ![4, 1])
    (src dst : IVec (Vc E) 32) (h : FVec Ideal (Mx N 4) .f32) (d : Fin 4) (e : Fin E) :
    prodCols n zE E1 htr gc src dst h (ix2 d e)
      = h (ix2 (nodeIdx N hN (wrap1 n (src (ix1 e)))) d) * h (ix2 (nodeIdx N hN (wrap1 n (dst (ix1 e)))) d) := by
  unfold prodCols
  rw [mulf_apply, gatherColsWrapped_apply hN, gatherColsWrapped_apply hN, transpose_ix2_apply, transpose_ix2_apply]

/-- The score over rows at e: the four-term inner product of the final rows of the edge's two ends. -/
theorem scoreRows_apply (hN : 0 < N) (n : BitVec 32) (zE : S0.BroadcastsInDim (Vc E) ![])
    (E1 : (Vc E).BroadcastsInDim (Mx E 1) ![0])
    (gr : GatherDims.WF (Mx N 4) (Mx E 1) (Mx E 4) [1] [0] [] [0] [] 1 ![1, 4])
    (hred : (Mx E 4).ReducesTo [1] (Vc E))
    (h0 : 0 < S0.numel) (src dst : IVec (Vc E) 32) (h : FVec Ideal (Mx N 4) .f32) (e : Fin E) :
    scoreRows n zE E1 gr hred h0 src dst h (ix1 e)
      = ∑ d : Fin 4, h (ix2 (nodeIdx N hN (wrap1 n (src (ix1 e)))) d) * h (ix2 (nodeIdx N hN (wrap1 n (dst (ix1 e)))) d) := by
  have hr : (Mx E 4).Reduces [1] (Vc E) := ⟨hred.1, Nat.one_pos, hred.2⟩
  unfold scoreRows
  show Ideal.hostReduceAdd hred _ _ (ix1 e) = _
  rw [Ideal.hostReduceAdd_single hred hr]
  have hz : (constant (F := Ideal) S0 .f32 0x00000000#32) (Shape.Idx.first h0) = 0 := Ideal.ofBits_zero_f32
  rw [hz, zero_add]
  show ∑ d : Fin 4, mulf _ _ (hr.lift (ix1 e) d) = _
  refine Finset.sum_congr rfl fun (d : Fin 4) _ => ?_
  have hl : hr.lift (ix1 e) d = ix2 e d := by
    funext c; refine Fin.ext ?_
    match c with
    | ⟨0, _⟩ => rfl
    | ⟨1, _⟩ => rfl
  rw [hl, mulf_apply, gatherRowsWrapped_apply hN, gatherRowsWrapped_apply hN]

/-- THE TWO SCORES AGREE: summing the products over columns and flattening the row is the score over rows. -/
theorem colSums_prodCols_eq_scoreRows (hN : 0 < N) (n : BitVec 32) (zE : S0.BroadcastsInDim (Vc E) ![])
    (E1 : (Vc E).BroadcastsInDim (Mx E 1) ![0])
    (gr : GatherDims.WF (Mx N 4) (Mx E 1) (Mx E 4) [1] [0] [] [0] [] 1 ![1, 4])
    (htr : (Mx N 4).Transposes [1, 0] (Mx 4 N))
    (gc : GatherDims.WF (Mx 4 N) (Mx E 1) (Mx 4 E) [0] [1] [] [1] [] 1 ![4, 1])
    (hsc : (Mx 1 E).ShapeCasts (Vc E)) (hred : (Mx E 4).ReducesTo [1] (Vc E)) (h0 : 0 < S0.numel)
    (src dst : IVec (Vc E) 32) (h : FVec Ideal (Mx N 4) .f32) :
    shapeCast (Vc E) (colSums (prodCols n zE E1 htr gc src dst h)) hsc = scoreRows n zE E1 gr hred h0 src dst h := by
  funext j
  obtain ⟨e, rfl⟩ : ∃ e : Fin E, j = ix1 e := ⟨j 0, eq_ix1 j⟩
  rw [scoreRows_apply hN, shapeCast_dropUnit_apply ![E]]
  show ∑ d : Fin 4, prodCols n zE E1 htr gc src dst h (ix2 d e) = _
  refine Finset.sum_congr rfl fun d _ => ?_
  rw [prodCols_apply hN]

end Cert.EdgeScore

end
-- ==== Proof.Extents.lean ====
/-
  The network at its extents: a million nodes, sixteen million edges, seventeen million listed edges once every node's
  loop is appended, four features, and node numbers wrapped by the 32-bit word 1000000.

  The shape conditions of the host operations are decided on these literal shapes. Then the two whole functions of the
  six inputs that the certificate compares: the score over rows of the embedding with the loops listed, and the [4, E]
  array of products over columns of the embedding with the self term added, which is summed over its first axis and
  flattened. The two are one function of the inputs.
-/
import proofs.«154712_j38147899523171_2_alg».proof.Proof.Stages

noncomputable section

namespace Cert.EdgeScore

open Idealize.ShloMosaic Idealize.ShloMosaic.ValueIdx Cert.GraphStages

/-! ## The conditions, decided -/

theorem nodes : NodeConds 1000000 := ⟨by decide, by decide, by decide, by decide, by decide, by decide⟩

theorem edges : EdgeConds 1000000 16000000 :=
  ⟨by decide, by decide, by decide, by decide, by decide, by decide, by decide⟩

theorem listed : EdgeConds 1000000 17000000 :=
  ⟨by decide, by decide, by decide, by decide, by decide, by decide, by decide⟩

theorem joins : Shape.Concatenates [Vc 16000000, Vc 1000000] (Vc 17000000) 0 := by decide
theorem firstRow : (Mx 2 16000000).Slices ![0, 0] (Mx 1 16000000) := by decide
theorem secondRow : (Mx 2 16000000).Slices ![1, 0] (Mx 1 16000000) := by decide
theorem flat : (Mx 1 16000000).ShapeCasts (Vc 16000000) := by decide
theorem turned : (Mx 1000000 4).Transposes [1, 0] (Mx 4 1000000) := by decide
theorem colsWF : GatherDims.WF (Mx 4 1000000) (Mx 16000000 1) (Mx 4 16000000) [0] [1] [] [1] [] 1 ![4, 1] := by decide
theorem alongFeatures : (Mx 16000000 4).ReducesTo [1] (Vc 16000000) := by decide
theorem scalarPos : 0 < S0.numel := by decide

/-- x · W1: [N, 1] by [1, 4]. -/
def dotIn : DotDims (Mx 1000000 1) (Mx 1 4) (Mx 1000000 4) where
  lhsContracting := [1]
  rhsContracting := [0]
  lhsNonContracting := [0]
  rhsNonContracting := [1]
  lhsBatch := []
  rhsBatch := []
  wf := by decide

/-- h · W2: [N, 4] by [4, 4]. -/
def dotHidden : DotDims (Mx 1000000 4) (Mx 4 4) (Mx 1000000 4) where
  lhsContracting := [1]
  rhsContracting := [0]
  lhsNonContracting := [0]
  rhsNonContracting := [1]
  lhsBatch := []
  rhsBatch := []
  wf := by decide

/-! ## The two whole functions -/

variable (x : FVec Ideal (Mx 1000000 1) .f32) (ei : IVec (Mx 2 16000000) 32) (W1 : FVec Ideal (Mx 1 4) .f32)
  (b1 : FVec Ideal (Vc 4) .f32) (W2 : FVec Ideal (Mx 4 4) .f32) (b2 : FVec Ideal (Vc 4) .f32)

/-- The sources and the destinations of the edges: the two rows of the edge array. -/
def sources : IVec (Vc 16000000) 32 := edgeRow ![0, 0] firstRow flat ei
def targets : IVec (Vc 16000000) 32 := edgeRow ![1, 0] secondRow flat ei

/-- The score of every edge, loops listed among the edges, summed over rows. -/
def scoreListed : FVec Ideal (Vc 16000000) .f32 :=
  scoreRows 1000000#32 edges.zE edges.E1 edges.gr alongFeatures scalarPos (sources ei) (targets ei)
    (embedListed 1000000#32 nodes listed dotIn dotHidden
      (concatenate (Vc 17000000) 0 [⟨Vc 16000000, sources ei⟩, ⟨Vc 1000000, iotaInDim (Vc 1000000) 32 0⟩] joins)
      (concatenate (Vc 17000000) 0 [⟨Vc 16000000, targets ei⟩, ⟨Vc 1000000, iotaInDim (Vc 1000000) 32 0⟩] joins)
      x W1 b1 W2 b2)

/-- The products over columns, the self term added: the [4, E] array whose first axis is then summed. -/
def prodSelf : FVec Ideal (Mx 4 16000000) .f32 :=
  prodCols 1000000#32 edges.zE edges.E1 turned colsWF (sources ei) (targets ei)
    (embedSelf 1000000#32 nodes edges dotIn dotHidden (sources ei) (targets ei) x W1 b1 W2 b2)

/-- THE BRIDGE: the products over columns of the self-term embedding, summed over the features and flattened, are the
    scores over rows of the listed-loops embedding. -/
theorem colSums_prodSelf_eq_scoreListed :
    shapeCast (Vc 16000000) (colSums (prodSelf x ei W1 b1 W2 b2)) flat = scoreListed x ei W1 b1 W2 b2 := by
  unfold prodSelf scoreListed
  rw [embedListed_joined (by decide) (by decide) rfl joins 1000000#32 nodes edges listed]
  exact colSums_prodCols_eq_scoreRows (by decide) 1000000#32 edges.zE edges.E1 edges.gr turned colsWF flat
    alongFeatures scalarPos _ _ _

end Cert.EdgeScore

end
-- ==== Proof.RefValue.lean ====
/-
  What the reference computes: the score over rows of the embedding with the loops listed.

  The reference appends one loop per node to the edge list, counts degrees over the joined list, scales every listed
  edge's source row by the factors of its two ends, sums at the destinations, adds the bias, and does so twice with a
  rectifier in between; then it gathers the final rows at both ends of every given edge, multiplies them and sums along
  the features. Its run ends with the result at the composed term of those host operations, which is that function
  operation for operation.
-/
import proofs.«154712_j38147899523171_2_alg».proof.Proof.RefRun
import proofs.«154712_j38147899523171_2_alg».proof.Proof.Extents

set_option maxRecDepth 16384

noncomputable section

namespace Cert.ReferenceIdeal.RefValue

open Cert.ReferenceIdeal Cert.ReferenceIdeal.Gen Cert.ReferenceIdeal.ValueP Cert.EdgeScore
open Idealize.ShloMosaic Idealize.ShloMosaic.TcCoe Idealize.SL.Sem

/-- The composed term of the reference's host operations is the score over rows, loops listed. -/
theorem result_eq (m : (ℓ : Loc nD τ sig) → Buf (Elt Ideal) ℓ) (c : Dev nD) :
    res_main_v106 (F := Ideal) m c
      = scoreListed (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold res_main_v106
  rfl

end Cert.ReferenceIdeal.RefValue

end
-- ==== Proof.KernelEntry.lean ====
/-
  The array the region reads: the products over columns of the embedding with the self term added.

  Before the region the host takes the two rows of the edge array, counts degrees over the given edges and adds one,
  takes the factors, runs the two layers — each an aggregation over the given edges with the factors of both ends on
  every edge's row, the node's own row added with the square of its factor, and a bias —, transposes the final rows,
  gathers the columns of both ends of every edge and multiplies them. Composed, those host operations are that
  function of the six inputs as launched, operation for operation.
-/
import proofs.«154712_j38147899523171_2_alg».proof.Proof.Gen.KernelIdeal.Frame
import proofs.«154712_j38147899523171_2_alg».proof.Proof.Extents
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Cert.EdgeScore
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The products over columns of the six inputs as launched. -/
abbrev products (c : Dev nD) : FVec Ideal S4x16000000 .f32 :=
  prodSelf (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

/-- Contents carried to a typed reference's buffer and back are the contents. -/
theorem ofBuf_toBuf {T : BufTy} (x : StableHlo.TRef sig T) (v : T.Contents (Elt Ideal)) :
    x.ofBuf (x.toBuf v) = v := by
  simp only [StableHlo.TRef.ofBuf, StableHlo.TRef.toBuf, cast_cast, cast_eq]

set_option maxHeartbeats 16000000 in
/-- The region finds the array of its first window at the products over columns: the host operations before it,
    composed. -/
theorem entry_products (c : Dev nD) :
    (V m c (Pipeline.arrRef spec0 0) : S4x16000000.Idx → EReal) = products m c := by
  dsimp only [Gen.V, Gen.V0]
  show StableHlo.after _ _ (Proc.devRef .tc main_call0_v89) = _
  simp only [Gen.hostOps0, List.flatten_cons, List.flatten_nil, List.append_nil, List.cons_append, List.nil_append]
  after_results_simp
  simp only [ofBuf_toBuf]
  rfl

end Cert.KernelIdeal.RegionValue

end
-- ==== Proof.KernelValue.lean ====
/-
  What the region leaves: the column sums of the array it reads, block by block.

  The region's grid has 100 points; point t reads the [4, 160000] block of columns 160000·t … 160000·t + 159999 of the
  [4, E] input and writes the [1, 160000] block of the same columns of the [1, E] output, each entry the sum of the four
  entries above it. A block's column l is the array's column 160000·t + l in the input and in the output alike, so what
  point t writes back is block t of the array of column sums; the 100 blocks tile the output, which therefore ends as
  the column sums of the whole input. After the region the host flattens the [1, E] row to a vector.
-/
import proofs.«154712_j38147899523171_2_alg».proof.Proof.Gen.KernelIdeal.Frame
import proofs.«154712_j38147899523171_2_alg».proof.Proof.Extents
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Cert.EdgeScore
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The body at an index -/

theorem origin : (![0, 0] : Fin 2 → Nat) = fun _ => 0 := funext fun a => by fin_cases a <;> rfl

/-- The body's stored value at column l: the sum of the four entries of column l of the loaded block. -/
theorem payload_apply (x0 : FVec Ideal S4x160000 .f32) (u : Fin 1) (l : Fin 160000) :
    k0_pay1 (F := Ideal) x0 (ix2 u l) = ∑ d : Fin 4, x0 (ix2 d l) := by
  unfold k0_pay1
  dsimp only
  rw [shapeCast_addUnit_apply ![160000]]
  refine (Ideal.multiReduction_add_single _ 0x00000000#32 reduces_S4x160000_S160000 _ _ _).trans ?_
  rw [shapeCast_self]
  show ∑ d : Fin 4, x0 (Shape.Reduces.lift reduces_S4x160000_S160000 _ d) = _
  refine Finset.sum_congr rfl fun (d : Fin 4) _ => ?_
  congr 1
  funext a; refine Fin.ext ?_
  match a with
  | ⟨0, _⟩ => rfl
  | ⟨1, _⟩ => rfl

/-- The same at any index of the stored block. -/
theorem payload_at (x0 : FVec Ideal S4x160000 .f32) (y : S1x160000.Idx) :
    k0_pay1 (F := Ideal) x0 y = ∑ d : Fin 4, x0 (ix2 d ⟨(y 1).val, idx2_lt1 y⟩) := by
  obtain ⟨u, l, rfl⟩ : ∃ (u : Fin 1) (l : Fin 160000), y = ix2 u l := ⟨y 0, y 1, eq_ix2 y⟩
  exact payload_apply x0 u l

/-! ## From blocks to the array -/

/-- The printed index maps over the grid: both windows take every row and the same block of columns, whose number is
    below 100. -/
theorem index_facts : ∀ t : Fin cfg0.N, win0_0.index t (0 : Fin 2) = 0
    ∧ win0_0.index t (1 : Fin 2) = win0_1.index t (1 : Fin 2)
    ∧ win0_1.index t (0 : Fin 2) = 0 ∧ win0_1.index t (1 : Fin 2) < 100 :=
  (by decide +kernel : ∀ t : Fin grid0.N, _)

/-- Every block of columns is some point's. -/
theorem index_onto : ∀ q : Fin 100, ∃ t : Fin cfg0.N, win0_1.index t = ![0, q.val] :=
  (by decide +kernel : ∀ q : Fin 100, ∃ t : Fin grid0.N, win0_1.index t = ![0, q.val])

set_option maxHeartbeats 4000000 in
/-- WHAT POINT t WRITES BACK is block t of the column sums of the array P, when every input block is P read through
    the block's rectangle. -/
theorem flushed_colSums (c : Dev nD) (P : S4x16000000.Idx → EReal)
    (hP : ∀ (t : Fin cfg0.N) (y : S4x160000.Idx), iblk m c 0 t y = P (((cfg0.win 0).blk t).view.emb y))
    (t : Fin cfg0.N) :
    (dats m 0 c).flushed 1 t = ((cfg0.win 1).blk t).view.read (Elt Ideal) (colSums P) := by
  show (cfg0.win 1).cut (grid0.coords t) ((dats m 0 c).after 1 t) = _
  rw [after0_1]
  unfold out0_1
  rw [View.canon_unit_zero origin]
  simp only [View.ld_unit_zero (S := S4x160000) origin]
  obtain ⟨e0, e1, e2, e3⟩ := index_facts t
  funext j
  refine (payload_at (iblk m c 0 t) j).trans ?_
  -- column l of the input block and of the output block is the same column of the arrays
  have key : ∀ Q : S4x16000000.Idx → EReal,
      (∑ d : Fin 4, Q (((cfg0.win 0).blk t).view.emb (ix2 d ⟨(j 1).val, idx2_lt1 j⟩)))
        = ∑ d : Fin 4, Q (ix2 d ⟨((((cfg0.win 1).blk t).view.emb j) 1).val, idx2_lt1 _⟩) := by
    intro Q
    refine Finset.sum_congr rfl fun d _ => ?_
    congr 1
    funext a; refine Fin.ext ?_
    match a with
    | ⟨0, _⟩ => show win0_0.index t (0 : Fin 2) * 4 + 1 * d.val = d.val; omega
    | ⟨1, _⟩ =>
      show win0_0.index t (1 : Fin 2) * 160000 + 1 * (j 1).val = win0_1.index t (1 : Fin 2) * 160000 + 1 * (j 1).val
      omega
  refine Eq.trans ?_ (key P)
  exact Finset.sum_congr rfl fun d _ => hP t _

/-- An index of the output is in point t's block iff each coordinate is in the block's range on its axis. -/
theorem mem_block (t : Fin cfg0.N) (i : S1x16000000.Idx) :
    i ∈ ((cfg0.win 1).blk t).view.set ↔ ∀ a : Fin 2, win0_1.index t a * S1x160000.size a ≤ (i a).val
      ∧ (i a).val < win0_1.index t a * S1x160000.size a + S1x160000.size a := by
  show i ∈ ((View.whole main_call0_v90).slice (win0_1.rect t)).set ↔ _
  rw [View.set_slice_whole, Rect.mem_set_unit]
  exact Iff.rfl

/-- The 100 blocks tile the output: column k is in the block of point k / 160000. -/
theorem covered (i : S1x16000000.Idx) :
    ∃ t : Fin cfg0.N, (cfg0.win 1).flush t = true ∧ i ∈ ((cfg0.win 1).blk t).view.set := by
  have hi0 : (i 0).val < 1 := (i 0).isLt
  have hi1 : (i 1).val < 16000000 := (i 1).isLt
  obtain ⟨t, ht⟩ := index_onto ⟨(i 1).val / 160000, by omega⟩
  have q0 : win0_1.index t (0 : Fin 2) = 0 := congrFun ht 0
  have q1 : win0_1.index t (1 : Fin 2) = (i 1).val / 160000 := congrFun ht 1
  refine ⟨t, flush0_1 t, ?_⟩
  rw [mem_block]
  intro a
  match a with
  | ⟨0, _⟩ =>
    show win0_1.index t (0 : Fin 2) * 1 ≤ (i 0).val ∧ (i 0).val < win0_1.index t (0 : Fin 2) * 1 + 1
    omega
  | ⟨1, _⟩ =>
    show win0_1.index t (1 : Fin 2) * 160000 ≤ (i 1).val ∧ (i 1).val < win0_1.index t (1 : Fin 2) * 160000 + 160000
    omega

/-- THE OUTPUT ARRAY after the region: the column sums of the array P the region reads. -/
theorem final_colSums (c : Dev nD) (P : S4x16000000.Idx → EReal)
    (hP : ∀ (t : Fin cfg0.N) (y : S4x160000.Idx), iblk m c 0 t y = P (((cfg0.win 0).blk t).view.emb y)) :
    (dats m 0 c).arrAt 1 cfg0.N = colSums P :=
  (dats m 0 c).arrAt_eq_of_cover 1 _ (fun t _ => flushed_colSums m c P hP t) covered

/-! ## The host line after the region -/

/-- The result buffer: the region's output row, flattened. -/
theorem tail_flat (c : Dev nD) :
    Pipeline.afterTail₀ cfgs (dats m) 0 (V0 m) [hostOps1] c main_v0
      = shapeCast S16000000 ((dats m 0 c).arrAt 1 cfg0.N) shapeCasts_S1x16000000_S16000000 := by
  unfold Pipeline.afterTail₀
  show StableHlo.after hostOps1 _ (Proc.devRef .tc main_v0) = _
  after_results
  have hA : Pipeline.withArrays (cfgs 0).spec c (V0 m c) (fun w => (dats m 0 c).arrAt w (cfgs 0).N)
      (Proc.devRef .tc main_call0_v90) = (dats m 0 c).arrAt 1 cfg0.N :=
    Pipeline.withArrays_arr spec0 launch0.win.arr_inj c _ _ 1
  simp only [cast_eq]
  rw [hA]
  rfl

end Cert.KernelIdeal.RegionValue

end
-- ==== Proof.KernelRun.lean ====
/-
  The kernel's run, read: its result is the column sums of the products over columns, flattened.

  The frame run leaves the region's output array at what the library computes from the blocks written back — the column
  sums of the array the region reads — and the result buffer at the host line after the region applied to it, the
  flattening. The array the region reads is the products over columns of the inputs as launched. The arguments end as
  launched.
-/
import proofs.«154712_j38147899523171_2_alg».proof.Proof.Gen.KernelIdeal.Frame
import proofs.«154712_j38147899523171_2_alg».proof.Proof.Extents
import proofs.«154712_j38147899523171_2_alg».proof.Proof.KernelEntry
import proofs.«154712_j38147899523171_2_alg».proof.Proof.KernelValue
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

open scoped BigOperators

namespace Cert.KernelIdeal.RegionValue

open Cert.KernelIdeal Cert.KernelIdeal.Gen Cert.EdgeScore
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- A block of the first window read off an array P: P at the block's embedding of the index. -/
theorem read_block (t : Fin cfg0.N) (P : S4x16000000.Idx → EReal) (y : S4x160000.Idx) :
    ((cfg0.win 0).blk t).view.read (Elt Ideal) P y = P (((cfg0.win 0).blk t).view.emb y) := rfl

/-- Every input block is the products over columns read through the block's rectangle. -/
theorem block_reads (c : Dev nD) (t : Fin cfg0.N) (y : S4x160000.Idx) :
    iblk m c 0 t y = products m c (((cfg0.win 0).blk t).view.emb y) := by
  unfold iblk
  exact (congrArg (fun A : S4x16000000.Idx → EReal => ((cfg0.win 0).blk t).view.read (Elt Ideal) A y)
    (entry_products m c)).trans (read_block t _ y)

/-- Every weakly fair execution terminates with the result at the flattened column sums of the products over columns of
    the inputs as launched, and the arguments unchanged. -/
theorem run : θ_run defs (onTc (τ := τ) (main (F := Ideal))) ⟨m, fun _ => 0, ρ⟩ fun r => ∀ c : Dev nD,
      r.2.mem ((c.tc : Thread nD τ).loc main_v0) = shapeCast (GraphStages.Vc 16000000) (colSums (products m c)) flat
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v0 (Pipeline.mem_restRefs_of main_v0 (by decide) (by decide))).trans
        ((tail_flat m c).trans (by rw [final_colSums m c (products m c) (block_reads m c)])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.RegionValue

end
-- ==== Proof.lean ====
/-
  The kernel against its reference: edge scores of a two-layer symmetric-normalised graph convolution.

  Both programs embed a million nodes by two graph-convolution layers over sixteen million edges and score every edge by
  the inner product of the final rows of its two ends. The reference appends one loop per node to the edge list and
  treats the loops as edges: degrees are counted, and rows aggregated, over the joined list. The kernel's program counts
  degrees over the given edges and adds one, aggregates over the given edges and adds each node's own row scaled by the
  square of its factor; it scores from the transposed embedding, multiplying gathered columns on the host and summing
  the four features in a pipelined region of 100 blocks of 160000 edges, whose [1, E] output the host flattens.

  At the ideal instance the two results are one function of the inputs. A sum over edges-then-loops is the sum over the
  edges plus the sum over the loops, and of the loops only node i's own arrives at node i, with both ends at i: so the
  degrees agree, and the aggregations agree by commutativity and associativity of + and commutativity of · alone, which
  hold on all extended reals — the precondition is not used. The two scores are the same four-term sum, entry by entry.

  The three frames: the kernel's two are the generated frame certificates; the reference's is its run with the result
  dropped. The ideal pass rewrote nothing, so there is nothing to preserve.
-/
import proofs.«154712_j38147899523171_2_alg».proof.Defs
import proofs.«154712_j38147899523171_2_alg».proof.Proof.Gen.Kernel
import proofs.«154712_j38147899523171_2_alg».proof.Proof.Gen.Kernel.Skeleton
import proofs.«154712_j38147899523171_2_alg».proof.Proof.Gen.Kernel.Launch
import proofs.«154712_j38147899523171_2_alg».proof.Proof.Gen.Kernel.Points
import proofs.«154712_j38147899523171_2_alg».proof.Proof.Gen.Kernel.Frame
import proofs.«154712_j38147899523171_2_alg».proof.Proof.Gen.KernelIdeal
import proofs.«154712_j38147899523171_2_alg».proof.Proof.Gen.KernelIdeal.Skeleton
import proofs.«154712_j38147899523171_2_alg».proof.Proof.Gen.KernelIdeal.Launch
import proofs.«154712_j38147899523171_2_alg».proof.Proof.Gen.KernelIdeal.Points
import proofs.«154712_j38147899523171_2_alg».proof.Proof.Gen.KernelIdeal.Frame
import proofs.«154712_j38147899523171_2_alg».proof.Proof.Gen.ReferenceIdeal
import proofs.«154712_j38147899523171_2_alg».proof.Proof.Gen.Pre_finite_inputs
import proofs.«154712_j38147899523171_2_alg».proof.Proof.RefRun
import proofs.«154712_j38147899523171_2_alg».proof.Proof.RefValue
import proofs.«154712_j38147899523171_2_alg».proof.Proof.Extents
import proofs.«154712_j38147899523171_2_alg».proof.Proof.KernelRun
import Idealize.ShloMosaic.Adequacy
import Idealize.ShloMosaic.Init

noncomputable section

namespace Cert.Proof

open Idealize.ShloMosaic Idealize.SL.Sem Cert.Kernel

/-- At the ideal instance the kernel's program ends at the flattened column sums of the products over columns of the
    self-term embedding, the reference at the score over rows of the listed-loops embedding, of arguments that agree:
    one function of the inputs. -/
theorem algebraic : Cert.algebraic_KernelIdeal_ReferenceIdeal := by
  intro m ρ m' ρ' _ hagree
  refine ⟨_, Cert.KernelIdeal.RegionValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, (hagree c).1, (hagree c).2.1, (hagree c).2.2.1, (hagree c).2.2.2.1,
    (hagree c).2.2.2.2.1, (hagree c).2.2.2.2.2]
  exact (Cert.EdgeScore.colSums_prodSelf_eq_scoreListed _ _ _ _ _ _).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.ValueP.run (F := Ideal) m ρ),
    trivial,
    algebraic⟩

end Cert.Proof

end
